-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x64 : Shape := ⟨4, ![16, 256, 256, 64]⟩
abbrev S16x256x3x64 : Shape := ⟨4, ![16, 256, 3, 64]⟩
abbrev S64x3x16576 : Shape := ⟨3, ![64, 3, 16576]⟩
abbrev S64x3 : Shape := ⟨2, ![64, 3]⟩
abbrev S_ : Shape := ⟨0, ![]⟩

class Facts : Prop where
  bcast_S_S16x256x256x64 : S_.BroadcastsInDim S16x256x256x64 (![] : Fin 0 → Fin S16x256x256x64.rank)
  reducesTo_S16x256x256x64_S_d0_1_2_3 : S16x256x256x64.ReducesTo [0, 1, 2, 3] S_
  h_S_ : 0 < S_.numel
  bcast_S_S16x256x3x64 : S_.BroadcastsInDim S16x256x3x64 (![] : Fin 0 → Fin S16x256x3x64.rank)
  reducesTo_S16x256x3x64_S_d0_1_2_3 : S16x256x3x64.ReducesTo [0, 1, 2, 3] S_
  bcast_S_S64x3x16576 : S_.BroadcastsInDim S64x3x16576 (![] : Fin 0 → Fin S64x3x16576.rank)
  reducesTo_S64x3x16576_S_d0_1_2 : S64x3x16576.ReducesTo [0, 1, 2] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  main_v18

def fn {F : FTy → Type} [FloatOps F] (main_arg0 : FVec F S16x256x256x64 .f32) (main_arg1 : FVec F S16x256x3x64 .f32) (main_arg2 : FVec F S64x3x16576 .f32) (main_arg3 : FVec F S64x3 .f32) : IVec S_ 1 :=
  let main_v0 : FVec F S16x256x256x64 .f32 := Host.absf main_arg0
  let main_cst : FVec F S_ .f32 := constant S_ .f32 0x7F800000#32
  let main_v1 : FVec F S16x256x256x64 .f32 := broadcastInDim S16x256x256x64 ![] bcast_S_S16x256x256x64 main_cst
  let main_v2 : IVec S16x256x256x64 1 := cmpf .olt main_v0 main_v1
  let main_c : IVec S_ 1 := constantI S_ 1 1#1
  let main_v3 : IVec S_ 1 := (fun x v => Host.reduce IntOp.andi x v reducesTo_S16x256x256x64_S_d0_1_2_3 h_S_) main_v2 main_c
  let main_v4 : FVec F S16x256x3x64 .f32 := Host.absf main_arg1
  let main_cst_0 : FVec F S_ .f32 := constant S_ .f32 0x7F800000#32
  let main_v5 : FVec F S16x256x3x64 .f32 := broadcastInDim S16x256x3x64 ![] bcast_S_S16x256x3x64 main_cst_0
  let main_v6 : IVec S16x256x3x64 1 := cmpf .olt main_v4 main_v5
  let main_c_1 : IVec S_ 1 := constantI S_ 1 1#1
  let main_v7 : IVec S_ 1 := (fun x v => Host.reduce IntOp.andi x v reducesTo_S16x256x3x64_S_d0_1_2_3 h_S_) main_v6 main_c_1
  let main_v8 : IVec S_ 1 := andi main_v3 main_v7
  let main_v9 : FVec F S64x3x16576 .f32 := Host.absf main_arg2
  let main_cst_2 : FVec F S_ .f32 := constant S_ .f32 0x7F800000#32
  let main_v10 : FVec F S64x3x16576 .f32 := broadcastInDim S64x3x16576 ![] bcast_S_S64x3x16576 main_cst_2
  let main_v11 : IVec S64x3x16576 1 := cmpf .olt main_v9 main_v10
  let main_c_3 : IVec S_ 1 := constantI S_ 1 1#1
  let main_v12 : IVec S_ 1 := (fun x v => Host.reduce IntOp.andi x v reducesTo_S64x3x16576_S_d0_1_2 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_v13 main_v16
-- ==== Kernel.lean ====
abbrev S16x256x256x64 : Shape := ⟨4, ![16, 256, 256, 64]⟩
abbrev S16x256x3x64 : Shape := ⟨4, ![16, 256, 3, 64]⟩
abbrev S64x3x16576 : Shape := ⟨3, ![64, 3, 16576]⟩
abbrev S64x3 : Shape := ⟨2, ![64, 3]⟩
abbrev S16576x3x64 : Shape := ⟨3, ![16576, 3, 64]⟩
abbrev S16576x192 : Shape := ⟨2, ![16576, 192]⟩
abbrev S16384x192 : Shape := ⟨2, ![16384, 192]⟩
abbrev S256x64x192 : Shape := ⟨3, ![256, 64, 192]⟩
abbrev S192x192 : Shape := ⟨2, ![192, 192]⟩
abbrev S3x64 : Shape := ⟨2, ![3, 64]⟩
abbrev S1x192 : Shape := ⟨2, ![1, 192]⟩
abbrev S16x256x192 : Shape := ⟨3, ![16, 256, 192]⟩
abbrev S1x16x256x64 : Shape := ⟨4, ![1, 16, 256, 64]⟩
abbrev S1x256x3x64 : Shape := ⟨4, ![1, 256, 3, 64]⟩
abbrev S1x256x192 : Shape := ⟨3, ![1, 256, 192]⟩
abbrev S256x192 : Shape := ⟨2, ![256, 192]⟩
abbrev S256x3x64 : Shape := ⟨3, ![256, 3, 64]⟩
abbrev S16x64x192 : Shape := ⟨3, ![16, 64, 192]⟩
abbrev S16x256x64 : Shape := ⟨3, ![16, 256, 64]⟩

abbrev nBuf : Space → Nat
  | .hbm => 15
  | .vmem => 10
  | .smem => 0
  | _ => 0

abbrev bufTy : (tb : Table) → Fin (tcTables nBuf tb) → BufTy
  | .hbm, ⟨0, _⟩ => ⟨S16x256x256x64, .f32⟩
  | .hbm, ⟨1, _⟩ => ⟨S16x256x3x64, .f32⟩
  | .hbm, ⟨2, _⟩ => ⟨S64x3x16576, .f32⟩
  | .hbm, ⟨3, _⟩ => ⟨S64x3, .f32⟩
  | .hbm, ⟨4, _⟩ => ⟨S16576x3x64, .f32⟩
  | .hbm, ⟨5, _⟩ => ⟨S16576x192, .f32⟩
  | .hbm, ⟨6, _⟩ => ⟨S16384x192, .f32⟩
  | .hbm, ⟨7, _⟩ => ⟨S16384x192, .bf16⟩
  | .hbm, ⟨8, _⟩ => ⟨S256x64x192, .bf16⟩
  | .hbm, ⟨9, _⟩ => ⟨S192x192, .f32⟩
  | .hbm, ⟨10, _⟩ => ⟨S192x192, .bf16⟩
  | .hbm, ⟨11, _⟩ => ⟨S3x64, .f32⟩
  | .hbm, ⟨12, _⟩ => ⟨S1x192, .f32⟩
  | .hbm, ⟨13, _⟩ => ⟨S16x256x192, .f32⟩
  | .hbm, ⟨14, _⟩ => ⟨S16x256x3x64, .f32⟩
  | .local _ .vmem, ⟨0, _⟩ => ⟨S1x16x256x64, .f32⟩
  | .local _ .vmem, ⟨1, _⟩ => ⟨S1x16x256x64, .f32⟩
  | .local _ .vmem, ⟨2, _⟩ => ⟨S1x256x3x64, .f32⟩
  | .local _ .vmem, ⟨3, _⟩ => ⟨S1x256x3x64, .f32⟩
  | .local _ .vmem, ⟨4, _⟩ => ⟨S256x64x192, .bf16⟩
  | .local _ .vmem, ⟨5, _⟩ => ⟨S192x192, .bf16⟩
  | .local _ .vmem, ⟨6, _⟩ => ⟨S1x192, .f32⟩
  | .local _ .vmem, ⟨7, _⟩ => ⟨S1x256x192, .f32⟩
  | .local _ .vmem, ⟨8, _⟩ => ⟨S1x256x192, .f32⟩
  | .local _ .vmem, ⟨9, _⟩ => ⟨S256x192, .f32⟩
  | _, _ => ⟨S16x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c16_i32 : BitVec 32 := 16#32
  let v3 : BitVec 32 := Scalar.muli arg1 c16_i32
  v3
def k0_off1 (i : grid0.Coords) : Fin 3 → Nat :=
  let arg1 : BitVec 32 := BitVec.ofNat 32 (i 1).val
  let c16_i32 : BitVec 32 := 16#32
  let v3 : BitVec 32 := Scalar.muli arg1 c16_i32
  let v4 : BitVec 32 := v3
  let v5 : Index := Scalar.indexCast v4
  let c0 : Index := 0#32
  let c0_1 : Index := 0#32
  ![v5.toNat, 0, 0]
def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x64x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x3x16576_S16576x3x64_2_1_0 : S64x3x16576.Transposes [2, 1, 0] S16576x3x64
  shapeCasts_S16576x3x64_S16576x192 : S16576x3x64.ShapeCasts S16576x192
  slices_S16576x192_S16384x192_0_0 : S16576x192.Slices ![0, 0] S16384x192
  bitsLt_bf16_f32 : FTy.bits .bf16 < FTy.bits .f32
  shapeCasts_S16384x192_S256x64x192 : S16384x192.ShapeCasts S256x64x192
  slices_S16576x192_S192x192_16384_0 : S16576x192.Slices ![16384, 0] S192x192
  transposes_S64x3_S3x64_1_0 : S64x3.Transposes [1, 0] S3x64
  shapeCasts_S3x64_S1x192 : S3x64.ShapeCasts S1x192
  inb_S1x256x3x64_S1x256x3x64_0_0_0_0 : ∀ a, (![0, 0, 0, 0] : Fin 4 → Nat) a + S1x256x3x64.size a ≤ S1x256x3x64.size a
  h_S1x256x3x64 : 0 < S1x256x3x64.numel
  shapeCasts_S1x256x3x64_S256x3x64 : S1x256x3x64.ShapeCasts S256x3x64
  shapeCasts_S256x3x64_S256x192 : S256x3x64.ShapeCasts S256x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S256x192_S256x192_0_0 : ∀ a, (![0, 0] : Fin 2 → Nat) a + S256x192.size a ≤ S256x192.size a
  h_S256x192 : 0 < S256x192.numel
  shapeCasts_S256x192_S256x192 : S256x192.ShapeCasts S256x192
  h_S16x64x192 : 0 < S16x64x192.numel
  shapeCasts_S16x64x192_S16x64x192 : S16x64x192.ShapeCasts S16x64x192
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  reduces_S16x256x192_S256x192 : S16x256x192.Reduces [0] S256x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S256x192 : S1x192.Broadcasts S256x192
  inb_S1x256x192_S1x256x192_0_0_0 : ∀ a, (![0, 0, 0] : Fin 3 → Nat) a + S1x256x192.size a ≤ S1x256x192.size a
  h_S1x256x192 : 0 < S1x256x192.numel
  shapeCasts_S1x256x192_S256x192 : S1x256x192.ShapeCasts S256x192
  shapeCasts_S256x192_S1x256x192 : S256x192.ShapeCasts S1x256x192
  shapeCasts_S16x256x192_S16x256x3x64 : S16x256x192.ShapeCasts S16x256x3x64
  dot_S256x192_S192x192_S256x192_1_0_0_1_n_n_wf : DotDims.WF S256x192 S192x192 S256x192 [1] [0] [0] [1] [] []
  dot_S16x256x64_S16x64x192_S16x256x192_2_1_1_2_0_0_wf : DotDims.WF S16x256x64 S16x64x192 S16x256x192 [2] [1] [1] [2] [0] [0]
  hrank0 : 0 < grid0.rank
  k0_mult1_dvd : ∀ i : grid0.Coords, 16 ∣ (k0_mult1 i).toNat
  k0_off1_inb : ∀ i : grid0.Coords, ∀ a, (k0_off1 i) a + S16x64x192.size a ≤ S256x64x192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S16x256x256x64.size a
  hwx0_0 : ∀ i : grid0.Coords, EltTy.bits .f32 = 32 ∨ (Rect.block (s := S16x256x256x64) S1x16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3x64.size a ≤ S16x256x3x64.size a
  hwx0_1 : ∀ i : grid0.Coords, EltTy.bits .f32 = 32 ∨ (Rect.block (s := S16x256x3x64) S1x256x3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64x192.size a ≤ S256x64x192.size a
  hwx0_2 : ∀ i : grid0.Coords, EltTy.bits .bf16 = 32 ∨ (Rect.block (s := S256x64x192) S256x64x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .bf16 = 32 ∨ (Rect.block (s := S192x192) S192x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x192.size a ≤ S16x256x192.size a
  hwx0_5 : ∀ i : grid0.Coords, EltTy.bits .f32 = 32 ∨ (Rect.block (s := S16x256x192) S1x256x192.size (cc0_transform_5 i) (hinb0_5 i)).WholeWords (EltTy.packing .f32)

variable [Facts₀]

def dot_S256x192_S192x192_S256x192_1_0_0_1_n_n : DotDims S256x192 S192x192 S256x192 where
  lhsContracting := [1]
  rhsContracting := [0]
  lhsNonContracting := [0]
  rhsNonContracting := [1]
  lhsBatch := []
  rhsBatch := []
  wf := dot_S256x192_S192x192_S256x192_1_0_0_1_n_n_wf
def dot_S16x256x64_S16x64x192_S16x256x192_2_1_1_2_0_0 : DotDims S16x256x64 S16x64x192 S16x256x192 where
  lhsContracting := [2]
  rhsContracting := [1]
  lhsNonContracting := [1]
  rhsNonContracting := [2]
  lhsBatch := [0]
  rhsBatch := [0]
  wf := dot_S16x256x64_S16x64x192_S16x256x192_2_1_1_2_0_0_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x256x256x64 : Shape := ⟨4, ![16, 256, 256, 64]⟩
abbrev S16x256x3x64 : Shape := ⟨4, ![16, 256, 3, 64]⟩
abbrev S64x3x16576 : Shape := ⟨3, ![64, 3, 16576]⟩
abbrev S64x3 : Shape := ⟨2, ![64, 3]⟩
abbrev S16x256x16384 : Shape := ⟨3, ![16, 256, 16384]⟩
abbrev S16x256x192 : Shape := ⟨3, ![16, 256, 192]⟩
abbrev S16x256x16576 : Shape := ⟨3, ![16, 256, 16576]⟩
abbrev S64x3x16x256 : Shape := ⟨4, ![64, 3, 16, 256]⟩
abbrev S3x64 : Shape := ⟨2, ![3, 64]⟩
abbrev S1x1x3x64 : Shape := ⟨4, ![1, 1, 3, 64]⟩

abbrev nBuf : Space → Nat
  | .hbm => 14
  | .vmem => 0
  | .smem => 0
  | _ => 0

abbrev bufTy : (tb : Table) → Fin (tcTables nBuf tb) → BufTy
  | .hbm, ⟨0, _⟩ => ⟨S16x256x256x64, .f32⟩
  | .hbm, ⟨1, _⟩ => ⟨S16x256x3x64, .f32⟩
  | .hbm, ⟨2, _⟩ => ⟨S64x3x16576, .f32⟩
  | .hbm, ⟨3, _⟩ => ⟨S64x3, .f32⟩
  | .hbm, ⟨4, _⟩ => ⟨S16x256x256x64, .f32⟩
  | .hbm, ⟨5, _⟩ => ⟨S16x256x16384, .f32⟩
  | .hbm, ⟨6, _⟩ => ⟨S16x256x192, .f32⟩
  | .hbm, ⟨7, _⟩ => ⟨S16x256x16576, .f32⟩
  | .hbm, ⟨8, _⟩ => ⟨S64x3x16x256, .f32⟩
  | .hbm, ⟨9, _⟩ => ⟨S16x256x3x64, .f32⟩
  | .hbm, ⟨10, _⟩ => ⟨S3x64, .f32⟩
  | .hbm, ⟨11, _⟩ => ⟨S1x1x3x64, .f32⟩
  | .hbm, ⟨12, _⟩ => ⟨S16x256x3x64, .f32⟩
  | .hbm, ⟨13, _⟩ => ⟨S16x256x3x64, .f32⟩
  | _, _ => ⟨S16x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  transposes_S16x256x256x64_S16x256x256x64_0_2_1_3 : S16x256x256x64.Transposes [0, 2, 1, 3] S16x256x256x64
  shapeCasts_S16x256x256x64_S16x256x16384 : S16x256x256x64.ShapeCasts S16x256x16384
  shapeCasts_S16x256x3x64_S16x256x192 : S16x256x3x64.ShapeCasts S16x256x192
  concatenates_S16x256x16384_S16x256x192_S16x256x16576_d2 : Shape.Concatenates [S16x256x16384, S16x256x192] S16x256x16576 2
  transposes_S64x3x16x256_S16x256x3x64_2_3_1_0 : S64x3x16x256.Transposes [2, 3, 1, 0] S16x256x3x64
  transposes_S64x3_S3x64_1_0 : S64x3.Transposes [1, 0] S3x64
  bcast_S3x64_S1x1x3x64_2_3 : S3x64.BroadcastsInDim S1x1x3x64 (![2, 3] : Fin 2 → Fin S1x1x3x64.rank)
  bcast_S1x1x3x64_S16x256x3x64_0_1_2_3 : S1x1x3x64.BroadcastsInDim S16x256x3x64 (![0, 1, 2, 3] : Fin 4 → Fin S16x256x3x64.rank)
  dot_S64x3x16576_S16x256x16576_S64x3x16x256_2_2_01_01_n_n_wf : DotDims.WF S64x3x16576 S16x256x16576 S64x3x16x256 [2] [2] [0, 1] [0, 1] [] []

variable [Facts₀]

def dot_S64x3x16576_S16x256x16576_S64x3x16x256_2_2_01_01_n_n : DotDims S64x3x16576 S16x256x16576 S64x3x16x256 where
  lhsContracting := [2]
  rhsContracting := [2]
  lhsNonContracting := [0, 1]
  rhsNonContracting := [0, 1]
  lhsBatch := []
  rhsBatch := []
  wf := dot_S64x3x16576_S16x256x16576_S64x3x16x256_2_2_01_01_n_n_wf

class Facts : Prop extends Facts₀ where

variable [Facts]
-- ==== Proof.KPieces.lean ====
import proofs.«148720_j54494545051886_2_alg».proof.Proof.Gen.KernelIdeal.Frame
import Idealize.ShloMosaic.Lib.Pipeline.Value
import Idealize.ShloMosaic.Lib.Tactic

set_option maxRecDepth 16384

/-
  What each control case of the body leaves behind, read back as a value.

  The body keeps a [256, 192] accumulator across the 16 points of one batch. At the first point of a batch it stores the
  seeds' product into the accumulator and then adds the point's channel-group product to it; at every later point it adds
  the point's channel-group product to what the point before left; at the last point it also stores accumulator + bias
  into the output block. Each store covers its whole buffer, so what a case leaves is the payload of its last store, and
  a load that follows a covering store reads that store's payload. The only load that is not of a whole buffer is the
  one of the 16 channels' weights, a [16, 64, 192] slab of the resident [256, 64, 192] weight block at row offset 16 kb.
-/
noncomputable section

open Idealize.ShloMosaic Idealize.ShloMosaic.TcCoe Idealize.SL.Sem

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 16 channels' weights a point loads: rows `16 kb … 16 kb + 15` of the resident weight block. -/
abbrev wslab (i : grid0.Coords) (x2 : Vec F S256x64x192 .bf16) : Vec F S16x64x192 .bf16 :=
  View.ld x2 (Rect.unit (s := S256x64x192) (k0_off1 i) S16x64x192.size (k0_off1_inb i))

/-- First point of a batch: the accumulator ends at the seeds' product plus the point's channel-group product. -/
theorem acc_first (c : Dev nD) (i : grid0.Coords) (arg2 : Memref sig .tc .vmem S1x16x256x64 .f32) (harg2 : arg2.IsWhole) (arg3 : Memref sig .tc .vmem S1x256x3x64 .f32) (harg3 : arg3.IsWhole) (arg4 : Memref sig .tc .vmem S256x64x192 .bf16) (harg4 : arg4.IsWhole) (arg5 : Memref sig .tc .vmem S192x192 .bf16) (harg5 : arg5.IsWhole) (arg6 : Memref sig .tc .vmem S1x192 .f32) (harg6 : arg6.IsWhole) (arg7 : Memref sig .tc .vmem S1x256x192 .f32) (harg7 : arg7.IsWhole) (arg8 : Memref sig .tc .vmem S256x192 .f32) (harg8 : arg8.IsWhole) (hc0 : cond0_0 i) (hc1 : ¬cond0_1 i)
    (x0 : Vec F S1x16x256x64 .f32) (x1 : Vec F S1x256x3x64 .f32) (x2 : Vec F S256x64x192 .bf16) (x3 : Vec F S192x192 .bf16) (x4 : Vec F S1x192 .f32) :
    sout0_A_0 c i arg2 harg2 arg3 harg3 arg4 harg4 arg5 harg5 arg6 harg6 arg7 harg7 arg8 harg8 hc0 hc1 x0 x1 x2 x3 x4 = k0_pay2 (wslab i x2) x0 (k0_pay1 x1 x3) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x192) hz2, View.readCov_unit_zero (S := S256x192) _ hz2]
  simp only [View.readAt_eq_ld, harg2.read_unread, harg3.read_unread, harg4.read_unread, harg5.read_unread, harg6.read_unread, harg8.read_unread, View.ld_unit_zero (S := S1x16x256x64) hz4, View.ld_unit_zero (S := S1x256x3x64) hz4, View.ld_unit_zero (S := S192x192) hz2, View.ld_unit_zero (S := S256x192) hz2, View.ld_unit_zero (S := S1x192) hz2]
  rfl

/-- A middle point: the accumulator ends at what the point before left plus the point's channel-group product. -/
theorem acc_middle (c : Dev nD) (i : grid0.Coords) (arg2 : Memref sig .tc .vmem S1x16x256x64 .f32) (harg2 : arg2.IsWhole) (arg3 : Memref sig .tc .vmem S1x256x3x64 .f32) (harg3 : arg3.IsWhole) (arg4 : Memref sig .tc .vmem S256x64x192 .bf16) (harg4 : arg4.IsWhole) (arg5 : Memref sig .tc .vmem S192x192 .bf16) (harg5 : arg5.IsWhole) (arg6 : Memref sig .tc .vmem S1x192 .f32) (harg6 : arg6.IsWhole) (arg7 : Memref sig .tc .vmem S1x256x192 .f32) (harg7 : arg7.IsWhole) (arg8 : Memref sig .tc .vmem S256x192 .f32) (harg8 : arg8.IsWhole) (hc0 : ¬cond0_0 i) (hc1 : ¬cond0_1 i)
    (x0 : Vec F S1x16x256x64 .f32) (x1 : Vec F S1x256x3x64 .f32) (x2 : Vec F S256x64x192 .bf16) (x3 : Vec F S192x192 .bf16) (x4 : Vec F S1x192 .f32) (xs0 : Vec F S256x192 .f32) :
    sout0_B_0 c i arg2 harg2 arg3 harg3 arg4 harg4 arg5 harg5 arg6 harg6 arg7 harg7 arg8 harg8 hc0 hc1 x0 x1 x2 x3 x4 xs0 = k0_pay2 (wslab i x2) x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S256x192) hz2]
  simp only [View.readAt_eq_ld, harg2.read_unread, harg3.read_unread, harg4.read_unread, harg5.read_unread, harg6.read_unread, harg8.read_unread, View.ld_unit_zero (S := S1x16x256x64) hz4, View.ld_unit_zero (S := S1x256x3x64) hz4, View.ld_unit_zero (S := S192x192) hz2, View.ld_unit_zero (S := S256x192) hz2, View.ld_unit_zero (S := S1x192) hz2]
  rfl

/-- The last point of a batch: the accumulator likewise, -/
theorem acc_last (c : Dev nD) (i : grid0.Coords) (arg2 : Memref sig .tc .vmem S1x16x256x64 .f32) (harg2 : arg2.IsWhole) (arg3 : Memref sig .tc .vmem S1x256x3x64 .f32) (harg3 : arg3.IsWhole) (arg4 : Memref sig .tc .vmem S256x64x192 .bf16) (harg4 : arg4.IsWhole) (arg5 : Memref sig .tc .vmem S192x192 .bf16) (harg5 : arg5.IsWhole) (arg6 : Memref sig .tc .vmem S1x192 .f32) (harg6 : arg6.IsWhole) (arg7 : Memref sig .tc .vmem S1x256x192 .f32) (harg7 : arg7.IsWhole) (arg8 : Memref sig .tc .vmem S256x192 .f32) (harg8 : arg8.IsWhole) (hc0 : ¬cond0_0 i) (hc1 : cond0_1 i)
    (x0 : Vec F S1x16x256x64 .f32) (x1 : Vec F S1x256x3x64 .f32) (x2 : Vec F S256x64x192 .bf16) (x3 : Vec F S192x192 .bf16) (x4 : Vec F S1x192 .f32) (xs0 : Vec F S256x192 .f32) :
    sout0_C_0 c i arg2 harg2 arg3 harg3 arg4 harg4 arg5 harg5 arg6 harg6 arg7 harg7 arg8 harg8 hc0 hc1 x0 x1 x2 x3 x4 xs0 = k0_pay2 (wslab i x2) x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S256x192) hz2]
  simp only [View.readAt_eq_ld, harg2.read_unread, harg3.read_unread, harg4.read_unread, harg5.read_unread, harg6.read_unread, harg8.read_unread, View.ld_unit_zero (S := S1x16x256x64) hz4, View.ld_unit_zero (S := S1x256x3x64) hz4, View.ld_unit_zero (S := S192x192) hz2, View.ld_unit_zero (S := S256x192) hz2, View.ld_unit_zero (S := S1x192) hz2]
  rfl

/-- and the output block ends at that accumulator plus the bias row. -/
theorem out_last (c : Dev nD) (i : grid0.Coords) (arg2 : Memref sig .tc .vmem S1x16x256x64 .f32) (harg2 : arg2.IsWhole) (arg3 : Memref sig .tc .vmem S1x256x3x64 .f32) (harg3 : arg3.IsWhole) (arg4 : Memref sig .tc .vmem S256x64x192 .bf16) (harg4 : arg4.IsWhole) (arg5 : Memref sig .tc .vmem S192x192 .bf16) (harg5 : arg5.IsWhole) (arg6 : Memref sig .tc .vmem S1x192 .f32) (harg6 : arg6.IsWhole) (arg7 : Memref sig .tc .vmem S1x256x192 .f32) (harg7 : arg7.IsWhole) (arg8 : Memref sig .tc .vmem S256x192 .f32) (harg8 : arg8.IsWhole) (hc0 : ¬cond0_0 i) (hc1 : cond0_1 i)
    (x0 : Vec F S1x16x256x64 .f32) (x1 : Vec F S1x256x3x64 .f32) (x2 : Vec F S256x64x192 .bf16) (x3 : Vec F S192x192 .bf16) (x4 : Vec F S1x192 .f32) (xs0 : Vec F S256x192 .f32) :
    out0_C_5 c i arg2 harg2 arg3 harg3 arg4 harg4 arg5 harg5 arg6 harg6 arg7 harg7 arg8 harg8 hc0 hc1 x0 x1 x2 x3 x4 xs0 = k0_pay3 (k0_pay2 (wslab i x2) x0 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S1x256x192) hz3, View.readCov_unit_zero (S := S256x192) _ hz2]
  simp only [View.readAt_eq_ld, harg2.read_unread, harg3.read_unread, harg4.read_unread, harg5.read_unread, harg6.read_unread, harg8.read_unread, View.ld_unit_zero (S := S1x16x256x64) hz4, View.ld_unit_zero (S := S1x256x3x64) hz4, View.ld_unit_zero (S := S192x192) hz2, View.ld_unit_zero (S := S256x192) hz2, View.ld_unit_zero (S := S1x192) hz2]
  rfl

end Cert.KernelIdeal.Pieces
end
-- ==== Proof.Spec.lean ====
/-
  The result both programs compute, as ONE function of the four argument arrays over the extended reals.

  With x : [16, 256, 256, 64] (batch, channel, time, node), seeds : [16, 256, 3, 64] (batch, time, seed channel,
  seed), W : [64, 3, 16576] (new node, output channel, mixed feature) and b : [64, 3], the entry (n, t, c, j) of the
  result is

      ( sum over s < 192 of seeds[n, t, s / 64, s % 64] * W[j, c, 16384 + s]
        + sum over q < 16 of ( sum over cc < 16, v < 64 of x[n, 16 q + cc, t, v] * W[j, c, (16 q + cc) * 64 + v] ) )
      + b[j, c].

  The mixed feature axis of length 16576 = 256 * 64 + 192 lists the (channel, node) pairs of x first, channel-major,
  and the 192 (seed channel, seed) pairs after them; the channels are taken in 16 groups of 16. Regrouping the one sum
  over the 16576 features into the seed part and the 16 channel groups uses only that addition is commutative and
  associative (`sum_features`), so it holds for the extended reals with no finiteness assumption.
-/
import Idealize.ShloMosaic.PureOps.Ideal
import Idealize.ShloMosaic.Lib.ValueIdx

noncomputable section

namespace Cert.Spec

open Idealize.ShloMosaic Idealize.ShloMosaic.ValueIdx

/-- The shapes of the four arguments and of the result. -/
abbrev SX : Shape := ⟨4, ![16, 256, 256, 64]⟩
abbrev SSd : Shape := ⟨4, ![16, 256, 3, 64]⟩
abbrev SW : Shape := ⟨3, ![64, 3, 16576]⟩
abbrev SB : Shape := ⟨2, ![64, 3]⟩

/-- Channel `16 q + cc`: member `cc` of channel group `q`. -/
def chan (q cc : Fin 16) : Fin 256 := ⟨16 * q.val + cc.val, by have := q.isLt; have := cc.isLt; omega⟩
/-- The mixed feature of (channel, node): `ch * 64 + v`. -/
def featX (ch : Fin 256) (v : Fin 64) : Fin 16576 := ⟨ch.val * 64 + v.val, by have := ch.isLt; have := v.isLt; omega⟩
/-- The mixed feature of flat seed position `s`: `16384 + s`. -/
def featS (s : Fin 192) : Fin 16576 := ⟨16384 + s.val, by have := s.isLt; omega⟩
/-- A flat seed position's seed channel `s / 64` and seed `s % 64`. -/
def seedCh (s : Fin 192) : Fin 3 := ⟨s.val / 64, by have := s.isLt; omega⟩
def seedIx (s : Fin 192) : Fin 64 := ⟨s.val % 64, Nat.mod_lt _ (by decide)⟩

/-- The seeds' share of entry (n, t, c, j). -/
def seedPart (Sd : SSd.Idx → EReal) (W : SW.Idx → EReal) (n : Fin 16) (t : Fin 256) (c : Fin 3) (j : Fin 64) : EReal :=
  ∑ s : Fin 192, Sd (ix4 n t (seedCh s) (seedIx s)) * W (ix3 j c (featS s))

/-- Channel group `q`'s share of entry (n, t, c, j). -/
def groupPart (X : SX.Idx → EReal) (W : SW.Idx → EReal) (n : Fin 16) (t : Fin 256) (c : Fin 3) (j : Fin 64) (q : Fin 16) : EReal :=
  ∑ cc : Fin 16, ∑ v : Fin 64, X (ix4 n (chan q cc) t v) * W (ix3 j c (featX (chan q cc) v))

/-- The result at (n, t, c, j). -/
def entry (X : SX.Idx → EReal) (Sd : SSd.Idx → EReal) (W : SW.Idx → EReal) (B : SB.Idx → EReal)
    (n : Fin 16) (t : Fin 256) (c : Fin 3) (j : Fin 64) : EReal :=
  (seedPart Sd W n t c j + ∑ q : Fin 16, groupPart X W n t c j q) + B (ix2 j c)

/-- The result array. -/
def result (X : SX.Idx → EReal) (Sd : SSd.Idx → EReal) (W : SW.Idx → EReal) (B : SB.Idx → EReal) : SSd.Idx → EReal :=
  fun i => entry X Sd W B (i 0) (i 1) (i 2) (i 3)

/-- A sum over the 16576 mixed features is the sum over the 192 seed positions plus, group by group, the sum over the
    256 * 64 (channel, node) pairs: a regrouping of one finite sum in a commutative monoid. -/
theorem sum_features {M : Type*} [AddCommMonoid M] (f : Fin 16576 → M) :
    ∑ k : Fin 16576, f k
      = (∑ s : Fin 192, f (featS s)) + ∑ q : Fin 16, ∑ cc : Fin 16, ∑ v : Fin 64, f (featX (chan q cc) v) := by
  have h1 : ∑ k : Fin 16576, f k
      = (∑ i : Fin 16384, f (Fin.castAdd 192 i)) + ∑ s : Fin 192, f (Fin.natAdd 16384 s) :=
    Fin.sum_univ_add (a := 16384) (b := 192) f
  have h2 : ∑ i : Fin 16384, f (Fin.castAdd 192 i)
      = ∑ ch : Fin 256, ∑ v : Fin 64, f (featX ch v) := by
    rw [← Equiv.sum_comp (finProdFinEquiv (m := 256) (n := 64)) (fun i : Fin 16384 => f (Fin.castAdd 192 i)),
      Fintype.sum_prod_type]
    refine Finset.sum_congr rfl fun ch _ => Finset.sum_congr rfl fun v _ => congrArg f (Fin.ext ?_)
    show v.val + 64 * ch.val = ch.val * 64 + v.val
    omega
  have h3 : ∑ ch : Fin 256, ∑ v : Fin 64, f (featX ch v)
      = ∑ q : Fin 16, ∑ cc : Fin 16, ∑ v : Fin 64, f (featX (chan q cc) v) := by
    rw [← Equiv.sum_comp (finProdFinEquiv (m := 16) (n := 16)) (fun ch : Fin 256 => ∑ v : Fin 64, f (featX ch v)),
      Fintype.sum_prod_type]
    refine Finset.sum_congr rfl fun q _ => Finset.sum_congr rfl fun cc _ => Finset.sum_congr rfl fun v _ =>
      congrArg f (Fin.ext ?_)
    show (cc.val + 16 * q.val) * 64 + v.val = (16 * q.val + cc.val) * 64 + v.val
    omega
  have h4 : ∑ s : Fin 192, f (Fin.natAdd 16384 s) = ∑ s : Fin 192, f (featS s) :=
    Finset.sum_congr rfl fun s _ => congrArg f (Fin.ext rfl)
  rw [h1, h2, h3, h4, add_comm]

end Cert.Spec

end
-- ==== Proof.KPay.lean ====
import proofs.«148720_j54494545051886_2_alg».proof.Proof.Gen.KernelIdeal.Skeleton
import proofs.«148720_j54494545051886_2_alg».proof.Proof.Spec
import Idealize.ShloMosaic.Lib.Pipeline.Value
import Idealize.ShloMosaic.Lib.ValueIdx
import Idealize.ShloMosaic.PureOps.Ideal.Laws

set_option maxRecDepth 16384

/-
  The body's three stored values, read at an index over the extended reals.

  * the seeds' product at (r, m): the sum over the 192 flat seed positions s of seeds[0, r, s / 64, s % 64] * ws[s, m]
    (the [1, 256, 3, 64] seeds block is viewed [256, 192], row-major, and multiplied into a zero accumulator);
  * the accumulator after a point at (r, m): what it held, plus the sum over the point's 16 channels cc and the 64 nodes v
    of x[0, cc, r, v] * w[cc, v, m] (a product batched over the channel, into a zero accumulator, then summed over the
    channel from zero);
  * the output block at (0, r, m): the accumulator at (r, m) plus the bias row at (0, m).
  A change of float format is the identity on extended reals, and a cast to the same shape is the identity.
-/
noncomputable section

open Idealize.ShloMosaic Idealize.ShloMosaic.ValueIdx

namespace Cert.KernelIdeal.Pay
open Cert.KernelIdeal Cert.KernelIdeal.Gen Cert.Spec

/-- The seeds' product: [256, 192] by [192, 192], contracting the 192 flat seed positions. -/
abbrev dSeed := dot_S256x192_S192x192_S256x192_1_0_0_1_n_n
/-- The channel-group product: [16, 256, 64] by [16, 64, 192], batched over the 16 channels, contracting the 64 nodes. -/
abbrev dGroup := dot_S16x256x64_S16x64x192_S16x256x192_2_1_1_2_0_0

/-! ## The operand indices of the two products -/

theorem seed_lhs_0 (j : S256x192.Idx) (q : dSeed.contr.Idx) : (dSeed.lhsIdx j q 0).val = (j 0).val := by
  unfold DotDims.lhsIdx
  rw [dif_neg (show ¬(0 : Fin S256x192.rank) ∈ dSeed.lhsBatch by decide), dif_pos (show (0 : Fin S256x192.rank) ∈ dSeed.lhsNonContracting by decide)]
  rfl
theorem seed_lhs_1 (j : S256x192.Idx) (q : dSeed.contr.Idx) : (dSeed.lhsIdx j q 1).val = (q ⟨0, by decide⟩).val :=
  dSeed.lhsIdx_val_of_single rfl j q
theorem seed_rhs_0 (j : S256x192.Idx) (q : dSeed.contr.Idx) : (dSeed.rhsIdx j q 0).val = (q ⟨0, by decide⟩).val :=
  dSeed.rhsIdx_val_of_single rfl j q
theorem seed_rhs_1 (j : S256x192.Idx) (q : dSeed.contr.Idx) : (dSeed.rhsIdx j q 1).val = (j 1).val := by
  unfold DotDims.rhsIdx
  rw [dif_neg (show ¬(1 : Fin S192x192.rank) ∈ dSeed.rhsBatch by decide), dif_pos (show (1 : Fin S192x192.rank) ∈ dSeed.rhsNonContracting by decide)]
  rfl

theorem seed_lhs (r : Fin 256) (m : Fin 192) (s : Fin 192) :
    dSeed.lhsIdx (ix2 r m) ((contrEquiv1 dSeed 192 rfl rfl).symm s) = ix2 r s := funext fun a => Fin.ext (by
  have hk := contrEquiv1_symm_val dSeed 192 rfl rfl s
  match a with
  | ⟨0, _⟩ => exact seed_lhs_0 _ _
  | ⟨1, _⟩ => exact (seed_lhs_1 _ _).trans hk)

theorem seed_rhs (r : Fin 256) (m : Fin 192) (s : Fin 192) :
    dSeed.rhsIdx (ix2 r m) ((contrEquiv1 dSeed 192 rfl rfl).symm s) = ix2 s m := funext fun a => Fin.ext (by
  have hk := contrEquiv1_symm_val dSeed 192 rfl rfl s
  match a with
  | ⟨0, _⟩ => exact (seed_rhs_0 _ _).trans hk
  | ⟨1, _⟩ => exact seed_rhs_1 _ _)

theorem group_lhs_0 (j : S16x256x192.Idx) (q : dGroup.contr.Idx) : (dGroup.lhsIdx j q 0).val = (j 0).val := by
  unfold DotDims.lhsIdx
  rw [dif_pos (show (0 : Fin S16x256x64.rank) ∈ dGroup.lhsBatch by decide)]
  rfl
theorem group_lhs_1 (j : S16x256x192.Idx) (q : dGroup.contr.Idx) : (dGroup.lhsIdx j q 1).val = (j 1).val := by
  unfold DotDims.lhsIdx
  rw [dif_neg (show ¬(1 : Fin S16x256x64.rank) ∈ dGroup.lhsBatch by decide), dif_pos (show (1 : Fin S16x256x64.rank) ∈ dGroup.lhsNonContracting by decide)]
  rfl
theorem group_lhs_2 (j : S16x256x192.Idx) (q : dGroup.contr.Idx) : (dGroup.lhsIdx j q 2).val = (q ⟨0, by decide⟩).val :=
  dGroup.lhsIdx_val_of_single rfl j q
theorem group_rhs_0 (j : S16x256x192.Idx) (q : dGroup.contr.Idx) : (dGroup.rhsIdx j q 0).val = (j 0).val := by
  unfold DotDims.rhsIdx
  rw [dif_pos (show (0 : Fin S16x64x192.rank) ∈ dGroup.rhsBatch by decide)]
  rfl
theorem group_rhs_1 (j : S16x256x192.Idx) (q : dGroup.contr.Idx) : (dGroup.rhsIdx j q 1).val = (q ⟨0, by decide⟩).val :=
  dGroup.rhsIdx_val_of_single rfl j q
theorem group_rhs_2 (j : S16x256x192.Idx) (q : dGroup.contr.Idx) : (dGroup.rhsIdx j q 2).val = (j 2).val := by
  unfold DotDims.rhsIdx
  rw [dif_neg (show ¬(2 : Fin S16x64x192.rank) ∈ dGroup.rhsBatch by decide), dif_pos (show (2 : Fin S16x64x192.rank) ∈ dGroup.rhsNonContracting by decide)]
  rfl

theorem group_lhs (cc : Fin 16) (r : Fin 256) (m : Fin 192) (v : Fin 64) :
    dGroup.lhsIdx (ix3 cc r m) ((contrEquiv1 dGroup 64 rfl rfl).symm v) = ix3 cc r v := funext fun a => Fin.ext (by
  have hk := contrEquiv1_symm_val dGroup 64 rfl rfl v
  match a with
  | ⟨0, _⟩ => exact group_lhs_0 _ _
  | ⟨1, _⟩ => exact group_lhs_1 _ _
  | ⟨2, _⟩ => exact (group_lhs_2 _ _).trans hk)

theorem group_rhs (cc : Fin 16) (r : Fin 256) (m : Fin 192) (v : Fin 64) :
    dGroup.rhsIdx (ix3 cc r m) ((contrEquiv1 dGroup 64 rfl rfl).symm v) = ix3 cc v m := funext fun a => Fin.ext (by
  have hk := contrEquiv1_symm_val dGroup 64 rfl rfl v
  match a with
  | ⟨0, _⟩ => exact group_rhs_0 _ _
  | ⟨1, _⟩ => exact (group_rhs_1 _ _).trans hk
  | ⟨2, _⟩ => exact group_rhs_2 _ _)

/-! ## The three stored values at an index -/

/-- The seeds block viewed [256, 192] reads (r, s) at seeds[0, r, s / 64, s % 64]. -/
theorem seeds_view (sd : Vec Ideal S1x256x3x64 .f32) (r : Fin 256) (s : Fin 192) :
    shapeCast S256x192 (shapeCast S256x3x64 sd shapeCasts_S1x256x3x64_S256x3x64) shapeCasts_S256x3x64_S256x192 (ix2 r s)
      = sd (ix4 0 r (seedCh s) (seedIx s)) := by
  refine (shapeCast_apply _ shapeCasts_S256x3x64_S256x192 (ix2 r s) (ix3 r (seedCh s) (seedIx s)) ?_).trans ?_
  · rw [Shape.rowMajor_val_three, Shape.rowMajor_val_two]
    have hs := s.isLt
    show (r.val * 3 + s.val / 64) * 64 + s.val % 64 = r.val * 192 + s.val
    omega
  · refine shapeCast_apply sd shapeCasts_S1x256x3x64_S256x3x64 (ix3 r (seedCh s) (seedIx s)) (ix4 0 r (seedCh s) (seedIx s)) ?_
    rw [Shape.rowMajor_val_four, Shape.rowMajor_val_three]
    show ((0 * 256 + r.val) * 3 + s.val / 64) * 64 + s.val % 64 = (r.val * 3 + s.val / 64) * 64 + s.val % 64
    omega

theorem pay1_apply (sd : Vec Ideal S1x256x3x64 .f32) (ws : Vec Ideal S192x192 .bf16) (r : Fin 256) (m : Fin 192) :
    k0_pay1 (F := Ideal) sd ws (ix2 r m) = ∑ s : Fin 192, sd (ix4 0 r (seedCh s) (seedIx s)) * ws (ix2 s m) := by
  unfold k0_pay1
  refine (congrFun (shapeCast_self _ _) _).trans ?_
  refine (Ideal.matmul_constant_zero_apply dSeed none _ _ (ix2 r m)).trans ?_
  rw [← Equiv.sum_comp (contrEquiv1 dSeed 192 rfl rfl).symm]
  refine Finset.sum_congr rfl fun s _ => ?_
  rw [seed_lhs r m s, seed_rhs r m s]
  refine congrArg₂ (· * ·) ?_ ?_
  · exact seeds_view sd r s
  · exact congrFun (shapeCast_self ws _) _

/-- The x block viewed [16, 256, 64] reads (cc, r, v) at x[0, cc, r, v]. -/
theorem x_view (x : Vec Ideal S1x16x256x64 .f32) (cc : Fin 16) (r : Fin 256) (v : Fin 64) :
    shapeCast S16x256x64 x shapeCasts_S1x16x256x64_S16x256x64 (ix3 cc r v) = x (ix4 0 cc r v) := by
  refine shapeCast_apply x shapeCasts_S1x16x256x64_S16x256x64 (ix3 cc r v) (ix4 0 cc r v) ?_
  rw [Shape.rowMajor_val_four, Shape.rowMajor_val_three]
  show ((0 * 16 + cc.val) * 256 + r.val) * 64 + v.val = (cc.val * 256 + r.val) * 64 + v.val
  omega

/-- The sum over the channel axis of a [16, 256, 192] value, from zero. -/
theorem sum_channels (p : FVec Ideal S16x256x192 .f32) (hacc : (0x00000000#32 : BitVec 32) = 0x00000000#32) (r : Fin 256) (m : Fin 192) :
    multiReduction (F := Ideal) .add [0] S256x192 p 0x00000000#32 reduces_S16x256x192_S256x192 (.inl rfl) hacc (ix2 r m)
      = ∑ cc : Fin 16, p (ix3 cc r m) := by
  refine (Ideal.multiReduction_add_single p 0x00000000#32 reduces_S16x256x192_S256x192 (.inl rfl) hacc (ix2 r m)).trans ?_
  refine Finset.sum_congr rfl fun cc _ => congrArg p (funext fun a => Fin.ext ?_)
  match a with
  | ⟨0, _⟩ => rfl
  | ⟨1, _⟩ => rfl
  | ⟨2, _⟩ => rfl

theorem pay2_apply (w : Vec Ideal S16x64x192 .bf16) (x : Vec Ideal S1x16x256x64 .f32) (acc : Vec Ideal S256x192 .f32)
    (r : Fin 256) (m : Fin 192) :
    k0_pay2 (F := Ideal) w x acc (ix2 r m)
      = acc (ix2 r m) + ∑ cc : Fin 16, ∑ v : Fin 64, x (ix4 0 cc r v) * w (ix3 cc v m) := by
  unfold k0_pay2
  refine (congrFun (shapeCast_self _ _) _).trans ?_
  show acc (ix2 r m) + _ = _
  refine congrArg (acc (ix2 r m) + ·) ?_
  refine (sum_channels _ rfl r m).trans ?_
  refine Finset.sum_congr rfl fun cc _ => ?_
  refine (Ideal.matmul_constant_zero_apply dGroup none _ _ (ix3 cc r m)).trans ?_
  rw [← Equiv.sum_comp (contrEquiv1 dGroup 64 rfl rfl).symm]
  refine Finset.sum_congr rfl fun v _ => ?_
  rw [group_lhs cc r m v, group_rhs cc r m v]
  refine congrArg₂ (· * ·) ?_ ?_
  · exact x_view x cc r v
  · exact congrFun (shapeCast_self w _) _

/-- The bias row spread over the 256 rows reads (r, m) at (0, m). -/
theorem bias_view (bt : Vec Ideal S1x192 .f32) (r : Fin 256) (m : Fin 192) :
    broadcastTo S256x192 (shapeCast S1x192 bt shapeCasts_S1x192_S1x192) broadcasts_S1x192_S256x192 (ix2 r m) = bt (ix2 0 m) := by
  refine (broadcastTo_apply _ broadcasts_S1x192_S256x192 (ix2 r m) (ix2 0 m) (fun a => ?_)).trans (congrFun (shapeCast_self bt _) _)
  match a with
  | ⟨0, _⟩ => show 0 = if (1 : Nat) = 1 then 0 else r.val; rw [if_pos rfl]
  | ⟨1, _⟩ => show m.val = if (192 : Nat) = 1 then 0 else m.val; rw [if_neg (by decide)]

theorem pay3_apply (acc : Vec Ideal S256x192 .f32) (bt : Vec Ideal S1x192 .f32) (r : Fin 256) (m : Fin 192) :
    k0_pay3 (F := Ideal) acc bt (ix3 0 r m) = acc (ix2 r m) + bt (ix2 0 m) := by
  unfold k0_pay3
  refine (shapeCast_apply _ shapeCasts_S256x192_S1x256x192 (ix3 0 r m) (ix2 r m) ?_).trans ?_
  · rw [Shape.rowMajor_val_three, Shape.rowMajor_val_two]
    show r.val * 192 + m.val = (0 * 256 + r.val) * 192 + m.val
    omega
  · show acc (ix2 r m) + _ = _
    exact congrArg (acc (ix2 r m) + ·) (bias_view bt r m)

end Cert.KernelIdeal.Pay
end
-- ==== Proof.KBlocks.lean ====
import proofs.«148720_j54494545051886_2_alg».proof.Proof.KPieces
import proofs.«148720_j54494545051886_2_alg».proof.Proof.Spec
import Idealize.ShloMosaic.Lib.Pipeline.Value
import Idealize.ShloMosaic.Lib.ValueIdx
import Idealize.ShloMosaic.Lib.StableHlo.Run

set_option maxRecDepth 16384

/-
  What the body is handed at grid point t = 16 n + kb (batch n, channel group kb), read off the arrays the region finds,
  and those arrays read back to the arguments.

  * the x block holds x[n, 16 kb + cc, r, v] at (0, cc, r, v); the seeds block holds seeds[n, r, a, b] at (0, r, a, b);
  * the three resident blocks are whole arrays the host prepared: the weights as [256, 64, 192], whose entry (ch, v, m)
    is W[m % 64, m / 64, ch * 64 + v]; the seed weights as [192, 192], whose entry (s, m) is W[m % 64, m / 64, 16384 + s];
    the bias row [1, 192], whose entry (0, m) is b[m % 64, m / 64]. Here the column m = 64 c + j is the flat position of
    (output channel c, new node j): c = m / 64 and j = m % 64;
  * the 16 channels' weight slab the body loads sits at row offset 16 kb of the resident weights.
  A block's coordinate in its array is always block index * block size + the coordinate inside the block.
-/
noncomputable section

open Idealize.ShloMosaic Idealize.ShloMosaic.TcCoe Idealize.SL.Sem Idealize.ShloMosaic.ValueIdx

namespace Cert.KernelIdeal.Blocks
open Cert.KernelIdeal Cert.KernelIdeal.Gen Cert.Spec

variable (m : (ℓ : Loc nD τ sig) → Buf (Elt Ideal) ℓ)

/-! ## The index maps, decided once over the grid -/

theorem index_x : ∀ t : Fin cfg0.N, win0_0.index t (0 : Fin 4) = t.val / 16 ∧ win0_0.index t (1 : Fin 4) = t.val % 16
    ∧ win0_0.index t (2 : Fin 4) = 0 ∧ win0_0.index t (3 : Fin 4) = 0 :=
  (by decide +kernel : ∀ t : Fin grid0.N, _)
theorem index_seeds : ∀ t : Fin cfg0.N, win0_1.index t (0 : Fin 4) = t.val / 16 ∧ win0_1.index t (1 : Fin 4) = 0
    ∧ win0_1.index t (2 : Fin 4) = 0 ∧ win0_1.index t (3 : Fin 4) = 0 :=
  (by decide +kernel : ∀ t : Fin grid0.N, _)
theorem index_w : ∀ t : Fin cfg0.N, win0_2.index t (0 : Fin 3) = 0 ∧ win0_2.index t (1 : Fin 3) = 0 ∧ win0_2.index t (2 : Fin 3) = 0 :=
  (by decide +kernel : ∀ t : Fin grid0.N, _)
theorem index_ws : ∀ t : Fin cfg0.N, win0_3.index t (0 : Fin 2) = 0 ∧ win0_3.index t (1 : Fin 2) = 0 :=
  (by decide +kernel : ∀ t : Fin grid0.N, _)
theorem index_bias : ∀ t : Fin cfg0.N, win0_4.index t (0 : Fin 2) = 0 ∧ win0_4.index t (1 : Fin 2) = 0 :=
  (by decide +kernel : ∀ t : Fin grid0.N, _)
theorem offset_w : ∀ t : Fin cfg0.N, k0_off1 (grid0.coords t) (0 : Fin 3) = 16 * (t.val % 16)
    ∧ k0_off1 (grid0.coords t) (1 : Fin 3) = 0 ∧ k0_off1 (grid0.coords t) (2 : Fin 3) = 0 :=
  (by decide +kernel : ∀ t : Fin grid0.N, _)

/-! ## The blocks at a point -/

theorem x_block (c : Dev nD) (t : Fin cfg0.N) (n : Fin 16) (ch : Fin 256) (cc : Fin 16) (r : Fin 256) (v : Fin 64)
    (hn : n.val = t.val / 16) (hch : ch.val = 16 * (t.val % 16) + cc.val) :
    (iblk m c 0 t : Vec Ideal S1x16x256x64 .f32) (ix4 0 cc r v) = V m c main_arg0 (ix4 n ch r v) := by
  obtain ⟨h0, h1, h2, h3⟩ := index_x t
  unfold iblk
  rw [View.read_apply]
  show V m c main_arg0 _ = V m c main_arg0 _
  congr 1
  funext a
  apply Fin.ext
  match a with
  | ⟨0, _⟩ => show win0_0.index t (0 : Fin 4) * 1 + 1 * 0 = n.val; rw [h0, hn]; omega
  | ⟨1, _⟩ => show win0_0.index t (1 : Fin 4) * 16 + 1 * cc.val = ch.val; rw [h1, hch]; omega
  | ⟨2, _⟩ => show win0_0.index t (2 : Fin 4) * 256 + 1 * r.val = r.val; rw [h2]; omega
  | ⟨3, _⟩ => show win0_0.index t (3 : Fin 4) * 64 + 1 * v.val = v.val; rw [h3]; omega

theorem seeds_block (c : Dev nD) (t : Fin cfg0.N) (n : Fin 16) (r : Fin 256) (a : Fin 3) (b : Fin 64) (hn : n.val = t.val / 16) :
    (iblk m c 1 t : Vec Ideal S1x256x3x64 .f32) (ix4 0 r a b) = V m c main_arg1 (ix4 n r a b) := by
  obtain ⟨h0, h1, h2, h3⟩ := index_seeds t
  unfold iblk
  rw [View.read_apply]
  show V m c main_arg1 _ = V m c main_arg1 _
  congr 1
  funext d
  apply Fin.ext
  match d with
  | ⟨0, _⟩ => show win0_1.index t (0 : Fin 4) * 1 + 1 * 0 = n.val; rw [h0, hn]; omega
  | ⟨1, _⟩ => show win0_1.index t (1 : Fin 4) * 256 + 1 * r.val = r.val; rw [h1]; omega
  | ⟨2, _⟩ => show win0_1.index t (2 : Fin 4) * 3 + 1 * a.val = a.val; rw [h2]; omega
  | ⟨3, _⟩ => show win0_1.index t (3 : Fin 4) * 64 + 1 * b.val = b.val; rw [h3]; omega

theorem w_slab (c : Dev nD) (t : Fin cfg0.N) (ch : Fin 256) (cc : Fin 16) (v : Fin 64) (mc : Fin 192)
    (hch : ch.val = 16 * (t.val % 16) + cc.val) :
    Pieces.wslab (grid0.coords t) (iblk m c 2 t : Vec Ideal S256x64x192 .bf16) (ix3 cc v mc) = V m c main_v4 (ix3 ch v mc) := by
  obtain ⟨o0, o1, o2⟩ := offset_w t
  obtain ⟨h0, h1, h2⟩ := index_w t
  show (iblk m c 2 t : Vec Ideal S256x64x192 .bf16) _ = _
  unfold iblk
  rw [View.read_apply]
  show V m c main_v4 _ = V m c main_v4 _
  congr 1
  funext a
  apply Fin.ext
  match a with
  | ⟨0, _⟩ =>
    show win0_2.index t (0 : Fin 3) * 256 + 1 * (k0_off1 (grid0.coords t) (0 : Fin 3) + 1 * cc.val) = ch.val
    rw [h0, o0, hch]; omega
  | ⟨1, _⟩ =>
    show win0_2.index t (1 : Fin 3) * 64 + 1 * (k0_off1 (grid0.coords t) (1 : Fin 3) + 1 * v.val) = v.val
    rw [h1, o1]; omega
  | ⟨2, _⟩ =>
    show win0_2.index t (2 : Fin 3) * 192 + 1 * (k0_off1 (grid0.coords t) (2 : Fin 3) + 1 * mc.val) = mc.val
    rw [h2, o2]; omega

theorem ws_block (c : Dev nD) (t : Fin cfg0.N) (s mc : Fin 192) :
    (iblk m c 3 t : Vec Ideal S192x192 .bf16) (ix2 s mc) = V m c main_v6 (ix2 s mc) := by
  obtain ⟨h0, h1⟩ := index_ws t
  unfold iblk
  rw [View.read_apply]
  show V m c main_v6 _ = V m c main_v6 _
  congr 1
  funext a
  apply Fin.ext
  match a with
  | ⟨0, _⟩ => show win0_3.index t (0 : Fin 2) * 192 + 1 * s.val = s.val; rw [h0]; omega
  | ⟨1, _⟩ => show win0_3.index t (1 : Fin 2) * 192 + 1 * mc.val = mc.val; rw [h1]; omega

theorem bias_block (c : Dev nD) (t : Fin cfg0.N) (mc : Fin 192) :
    (iblk m c 4 t : Vec Ideal S1x192 .f32) (ix2 0 mc) = V m c main_v8 (ix2 0 mc) := by
  obtain ⟨h0, h1⟩ := index_bias t
  unfold iblk
  rw [View.read_apply]
  show V m c main_v8 _ = V m c main_v8 _
  congr 1
  funext a
  apply Fin.ext
  match a with
  | ⟨0, _⟩ => show win0_4.index t (0 : Fin 2) * 1 + 1 * 0 = 0; rw [h0]
  | ⟨1, _⟩ => show win0_4.index t (1 : Fin 2) * 192 + 1 * mc.val = mc.val; rw [h1]; omega

/-! ## The host-prepared arrays, read back to the arguments -/

/-- The weights of x's features, as the region finds them (the change of float format on the way is the identity on
    extended reals). -/
theorem V_w (c : Dev nD) : (V m c main_v4 : S256x64x192.Idx → Ideal .bf16)
    = shapeCast _ (extractStridedSlice S16384x192 ![0, 0] (shapeCast _ (transpose S16576x3x64 [2, 1, 0] (m ((c.tc : Thread nD τ).loc main_arg2)) transposes_S64x3x16576_S16576x3x64_2_1_0) shapeCasts_S16576x3x64_S16576x192) slices_S16576x192_S16384x192_0_0) shapeCasts_S16384x192_S256x64x192 := by
  show StableHlo.after hostOps0 (fun b => m (c, b)) (Proc.devRef .tc main_v4) = _
  after_results; rfl

/-- The weights of the seed features, as the region finds them. -/
theorem V_ws (c : Dev nD) : (V m c main_v6 : S192x192.Idx → Ideal .bf16)
    = extractStridedSlice S192x192 ![16384, 0] (shapeCast _ (transpose S16576x3x64 [2, 1, 0] (m ((c.tc : Thread nD τ).loc main_arg2)) transposes_S64x3x16576_S16576x3x64_2_1_0) shapeCasts_S16576x3x64_S16576x192) slices_S16576x192_S192x192_16384_0 := by
  show StableHlo.after hostOps0 (fun b => m (c, b)) (Proc.devRef .tc main_v6) = _
  after_results; rfl

/-- The bias row, as the region finds it. -/
theorem V_bias (c : Dev nD) : (V m c main_v8 : S1x192.Idx → Ideal .f32)
    = shapeCast _ (transpose S3x64 [1, 0] (m ((c.tc : Thread nD τ).loc main_arg3)) transposes_S64x3_S3x64_1_0) shapeCasts_S3x64_S1x192 := by
  show StableHlo.after hostOps0 (fun b => m (c, b)) (Proc.devRef .tc main_v8) = _
  after_results; rfl

/-- W transposed to (feature, channel, node) and flattened to (feature, 64 c + j) reads (k, m) at W[m % 64, m / 64, k]. -/
theorem wt_apply (W : S64x3x16576.Idx → Ideal .f32) (k : Fin 16576) (mc : Fin 192) :
    shapeCast S16576x192 (transpose S16576x3x64 [2, 1, 0] W transposes_S64x3x16576_S16576x3x64_2_1_0) shapeCasts_S16576x3x64_S16576x192 (ix2 k mc)
      = W (ix3 (seedIx mc) (seedCh mc) k) := by
  refine (shapeCast_apply _ shapeCasts_S16576x3x64_S16576x192 (ix2 k mc) (ix3 k (seedCh mc) (seedIx mc)) ?_).trans ?_
  · rw [Shape.rowMajor_val_three, Shape.rowMajor_val_two]
    show (k.val * 3 + mc.val / 64) * 64 + mc.val % 64 = k.val * 192 + mc.val
    omega
  · exact transpose_apply [2, 1, 0] W transposes_S64x3x16576_S16576x3x64_2_1_0 (ix3 k (seedCh mc) (seedIx mc)) (ix3 (seedIx mc) (seedCh mc) k)
      (fun b => match b with
        | ⟨0, _⟩ => rfl
        | ⟨1, _⟩ => rfl
        | ⟨2, _⟩ => rfl)

/-- The leading 16384 rows of a [16576, 192] array, read at (k, m). -/
theorem slice_head_apply {α : Type} (Y : S16576x192.Idx → α) (k : Fin 16384) (k' : Fin 16576) (hk : k'.val = k.val) (mc : Fin 192) :
    extractStridedSlice S16384x192 ![0, 0] Y slices_S16576x192_S16384x192_0_0 (ix2 k mc) = Y (ix2 k' mc) := by
  unfold extractStridedSlice
  refine congrArg Y (funext fun a => Fin.ext ?_)
  match a with
  | ⟨0, _⟩ => show 0 + k.val = k'.val; omega
  | ⟨1, _⟩ => show 0 + mc.val = mc.val; omega

/-- The trailing 192 rows of a [16576, 192] array, read at (s, m). -/
theorem slice_tail_apply {α : Type} (Y : S16576x192.Idx → α) (s : Fin 192) (k' : Fin 16576) (hk : k'.val = 16384 + s.val) (mc : Fin 192) :
    extractStridedSlice S192x192 ![16384, 0] Y slices_S16576x192_S192x192_16384_0 (ix2 s mc) = Y (ix2 k' mc) := by
  unfold extractStridedSlice
  refine congrArg Y (funext fun a => Fin.ext ?_)
  match a with
  | ⟨0, _⟩ => show 16384 + s.val = k'.val; omega
  | ⟨1, _⟩ => show 0 + mc.val = mc.val; omega

theorem w_apply (c : Dev nD) (ch : Fin 256) (v : Fin 64) (mc : Fin 192) :
    V m c main_v4 (ix3 ch v mc) = m ((c.tc : Thread nD τ).loc main_arg2) (ix3 (seedIx mc) (seedCh mc) (featX ch v)) := by
  have hk : ch.val * 64 + v.val < 16384 := by have := ch.isLt; have := v.isLt; omega
  rw [V_w]
  refine (shapeCast_apply _ shapeCasts_S16384x192_S256x64x192 (ix3 ch v mc) (ix2 (⟨ch.val * 64 + v.val, hk⟩ : Fin 16384) mc) ?_).trans ?_
  · rw [Shape.rowMajor_val_three, Shape.rowMajor_val_two]
    show (ch.val * 64 + v.val) * 192 + mc.val = (ch.val * 64 + v.val) * 192 + mc.val
    rfl
  · exact (slice_head_apply _ (⟨ch.val * 64 + v.val, hk⟩ : Fin 16384) (featX ch v) rfl mc).trans
      (wt_apply (m ((c.tc : Thread nD τ).loc main_arg2)) (featX ch v) mc)

theorem ws_apply (c : Dev nD) (s mc : Fin 192) :
    V m c main_v6 (ix2 s mc) = m ((c.tc : Thread nD τ).loc main_arg2) (ix3 (seedIx mc) (seedCh mc) (featS s)) := by
  rw [V_ws]
  exact (slice_tail_apply _ s (featS s) rfl mc).trans (wt_apply (m ((c.tc : Thread nD τ).loc main_arg2)) (featS s) mc)

theorem bias_apply (c : Dev nD) (mc : Fin 192) :
    V m c main_v8 (ix2 0 mc) = m ((c.tc : Thread nD τ).loc main_arg3) (ix2 (seedIx mc) (seedCh mc)) := by
  rw [V_bias]
  refine (shapeCast_apply _ shapeCasts_S3x64_S1x192 (ix2 0 mc) (ix2 (seedCh mc) (seedIx mc)) ?_).trans ?_
  · rw [Shape.rowMajor_val_two, Shape.rowMajor_val_two]
    show mc.val / 64 * 64 + mc.val % 64 = 0 * 192 + mc.val
    omega
  · exact transpose_apply [1, 0] _ transposes_S64x3_S3x64_1_0 (ix2 (seedCh mc) (seedIx mc)) (ix2 (seedIx mc) (seedCh mc))
      (fun b => match b with
        | ⟨0, _⟩ => rfl
        | ⟨1, _⟩ => rfl)

end Cert.KernelIdeal.Blocks
end
-- ==== Proof.KAcc.lean ====
import proofs.«148720_j54494545051886_2_alg».proof.Proof.KPieces
import proofs.«148720_j54494545051886_2_alg».proof.Proof.KPay
import proofs.«148720_j54494545051886_2_alg».proof.Proof.KBlocks
import proofs.«148720_j54494545051886_2_alg».proof.Proof.Spec
import Idealize.ShloMosaic.Lib.Pipeline.Value
import Idealize.ShloMosaic.Lib.ValueIdx

set_option maxRecDepth 16384

/-
  The accumulator after each grid point.

  Point t = 16 n + kb works on batch n and channel group kb. At kb = 0 the accumulator is reset to the seeds' share of
  batch n plus group 0's share; at every later point of the batch the point's group's share is added. So after point t
  the accumulator holds, at (r, m) with m = 64 c + j,

      seeds' share of (n, r, c, j) + sum over the groups q = 0 … kb of group q's share of (n, r, c, j),

  a reset-then-add fold over the run of points 16 n … 16 n + kb. The shares are the specification's, read through the
  blocks the point is handed and the arrays the host prepared.
-/
noncomputable section

open Idealize.ShloMosaic Idealize.ShloMosaic.TcCoe Idealize.SL.Sem Idealize.ShloMosaic.ValueIdx

namespace Cert.KernelIdeal.Acc
open Cert.KernelIdeal Cert.KernelIdeal.Gen Cert.Spec

variable (m : (ℓ : Loc nD τ sig) → Buf (Elt Ideal) ℓ)

/-! ## A point's two shares, through its blocks -/

/-- The seeds' product a batch's first point stores is the seeds' share of the batch. -/
theorem seed_value (c : Dev nD) (t : Fin cfg0.N) (n : Fin 16) (hn : n.val = t.val / 16) (r : Fin 256) (mc : Fin 192) :
    k0_pay1 (F := Ideal) (iblk m c 1 t) (iblk m c 3 t) (ix2 r mc)
      = seedPart (m ((c.tc : Thread nD τ).loc main_arg1)) (m ((c.tc : Thread nD τ).loc main_arg2)) n r (seedCh mc) (seedIx mc) := by
  refine (Pay.pay1_apply (iblk m c 1 t) (iblk m c 3 t) r mc).trans ?_
  unfold seedPart
  refine Finset.sum_congr rfl fun s _ => ?_
  rw [Blocks.seeds_block m c t n r (seedCh s) (seedIx s) hn, Blocks.ws_block m c t s mc, Blocks.ws_apply m c s mc, V_main_arg1 m c]

/-- A sum over 16 channels and 64 nodes of x-block times weight-slab entries is a group's share, once the two blocks are read
    back to the arguments. -/
theorem group_sum (X : Vec Ideal S1x16x256x64 .f32) (Wb : Vec Ideal S16x64x192 .bf16) (A : SX.Idx → EReal) (Wt : SW.Idx → EReal)
    (n q : Fin 16) (r : Fin 256) (mc : Fin 192)
    (hx : ∀ (cc : Fin 16) (v : Fin 64), X (ix4 0 cc r v) = A (ix4 n (chan q cc) r v))
    (hw : ∀ (cc : Fin 16) (v : Fin 64), Wb (ix3 cc v mc) = Wt (ix3 (seedIx mc) (seedCh mc) (featX (chan q cc) v))) :
    (∑ cc : Fin 16, ∑ v : Fin 64, X (ix4 0 cc r v) * Wb (ix3 cc v mc)) = groupPart A Wt n r (seedCh mc) (seedIx mc) q := by
  unfold groupPart
  exact Finset.sum_congr rfl fun cc _ => Finset.sum_congr rfl fun v _ => by rw [hx cc v, hw cc v]

/-- The x block of point `t` of batch `n`, group `q`, read back to x. -/
theorem x_read (c : Dev nD) (t : Fin cfg0.N) (n q : Fin 16) (hn : n.val = t.val / 16) (hq : q.val = t.val % 16)
    (r : Fin 256) (cc : Fin 16) (v : Fin 64) :
    (iblk m c 0 t : Vec Ideal S1x16x256x64 .f32) (ix4 0 cc r v) = m ((c.tc : Thread nD τ).loc main_arg0) (ix4 n (chan q cc) r v) := by
  have hch : (chan q cc).val = 16 * (t.val % 16) + cc.val := by show 16 * q.val + cc.val = _; rw [hq]
  rw [Blocks.x_block m c t n (chan q cc) cc r v hn hch, V_main_arg0 m c]

/-- The weight slab of point `t` of group `q`, read back to W. -/
theorem w_read (c : Dev nD) (t : Fin cfg0.N) (q : Fin 16) (hq : q.val = t.val % 16) (mc : Fin 192) (cc : Fin 16) (v : Fin 64) :
    Pieces.wslab (grid0.coords t) (iblk m c 2 t : Vec Ideal S256x64x192 .bf16) (ix3 cc v mc)
      = m ((c.tc : Thread nD τ).loc main_arg2) (ix3 (seedIx mc) (seedCh mc) (featX (chan q cc) v)) := by
  have hch : (chan q cc).val = 16 * (t.val % 16) + cc.val := by show 16 * q.val + cc.val = _; rw [hq]
  rw [Blocks.w_slab m c t (chan q cc) cc v mc hch, Blocks.w_apply m c (chan q cc) v mc]

/-! ## The fold -/

/-- What a batch's first point leaves in the accumulator, -/
def resetVal (c : Dev nD) (n : Nat) (h : n < cfg0.N) : Vec Ideal S256x192 .f32 :=
  k0_pay2 (F := Ideal) (Pieces.wslab (grid0.coords ⟨n, h⟩) (iblk m c 2 ⟨n, h⟩)) (iblk m c 0 ⟨n, h⟩)
    (k0_pay1 (F := Ideal) (iblk m c 1 ⟨n, h⟩) (iblk m c 3 ⟨n, h⟩))
/-- and what a later point makes of what the point before left. -/
def stepVal (c : Dev nD) (n : Nat) (h : n < cfg0.N) (acc : Vec Ideal S256x192 .f32) : Vec Ideal S256x192 .f32 :=
  k0_pay2 (F := Ideal) (Pieces.wslab (grid0.coords ⟨n, h⟩) (iblk m c 2 ⟨n, h⟩)) (iblk m c 0 ⟨n, h⟩) acc

theorem acc_reset (c : Dev nD) (n : Nat) (h : n < cfg0.N) (h0 : n % 16 = 0) :
    (outsAt0 m c n h).2 = resetVal m c n h := by
  have h1 : ¬n % 16 = 15 := by omega
  have e := outsAt0_A m c ⟨n, h⟩ h0 h1
  exact (congrArg Prod.snd e).trans
    (Pieces.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _)
      ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩))

set_option maxHeartbeats 400000 in
theorem acc_step_last (c : Dev nD) (n : Nat) (h : n + 1 < cfg0.N) (h0 : ¬(n + 1) % 16 = 0) (h1 : (n + 1) % 16 = 15) :
    (outsAt0 m c (n + 1) h).2 = stepVal m c (n + 1) h (outsAt0 m c n (Nat.lt_of_succ_lt h)).2 := by
  have e := outsAt0_C m c ⟨n + 1, h⟩ h0 h1
  exact (congrArg Prod.snd e).trans
    (Pieces.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _)
      (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2)

set_option maxHeartbeats 400000 in
theorem acc_step_middle (c : Dev nD) (n : Nat) (h : n + 1 < cfg0.N) (h0 : ¬(n + 1) % 16 = 0) (h1 : ¬(n + 1) % 16 = 15) :
    (outsAt0 m c (n + 1) h).2 = stepVal m c (n + 1) h (outsAt0 m c n (Nat.lt_of_succ_lt h)).2 := by
  have e := outsAt0_B m c ⟨n + 1, h⟩ h0 h1
  exact (congrArg Prod.snd e).trans
    (Pieces.acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _)
      (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2)

theorem acc_step (c : Dev nD) (n : Nat) (h : n + 1 < cfg0.N) (h0 : ¬(n + 1) % 16 = 0) :
    (outsAt0 m c (n + 1) h).2 = stepVal m c (n + 1) h (outsAt0 m c n (Nat.lt_of_succ_lt h)).2 := by
  by_cases h1 : (n + 1) % 16 = 15
  · exact acc_step_last m c n h h0 h1
  · exact acc_step_middle m c n h h0 h1

/-- Point `p`'s group's share of its batch at (r, m), as a function of every natural `p` (its values past the grid are
    never used): the batch is `p / 16` and the group `p % 16`. -/
def shareAt (c : Dev nD) (p : Nat) (y : S256x192.Idx) : EReal :=
  groupPart (m ((c.tc : Thread nD τ).loc main_arg0)) (m ((c.tc : Thread nD τ).loc main_arg2))
    ⟨p / 16 % 16, Nat.mod_lt _ (by decide)⟩ (y 0) (seedCh (y 1)) (seedIx (y 1)) ⟨p % 16, Nat.mod_lt _ (by decide)⟩

/-- The seeds' share of batch `n` at (r, m). -/
def seedAt (c : Dev nD) (n : Fin 16) (y : S256x192.Idx) : EReal :=
  seedPart (m ((c.tc : Thread nD τ).loc main_arg1)) (m ((c.tc : Thread nD τ).loc main_arg2)) n (y 0) (seedCh (y 1)) (seedIx (y 1))

/-- A point's step adds its group's share. -/
theorem stepVal_apply (c : Dev nD) (p : Nat) (h : p < cfg0.N) (acc : Vec Ideal S256x192 .f32) (y : S256x192.Idx) :
    stepVal m c p h acc y = acc y + shareAt m c p y := by
  have hN : p < 256 := lt_of_lt_of_eq h (show cfg0.N = 256 from N_0)
  obtain ⟨r, mc, rfl⟩ : ∃ (r : Fin 256) (mc : Fin 192), y = ix2 r mc := ⟨y 0, y 1, eq_ix2 y⟩
  have hn : (⟨p / 16 % 16, Nat.mod_lt _ (by decide)⟩ : Fin 16).val = (⟨p, h⟩ : Fin cfg0.N).val / 16 := by
    show p / 16 % 16 = p / 16; omega
  have hq : (⟨p % 16, Nat.mod_lt _ (by decide)⟩ : Fin 16).val = (⟨p, h⟩ : Fin cfg0.N).val % 16 := rfl
  unfold stepVal
  refine (Pay.pay2_apply (Pieces.wslab (grid0.coords ⟨p, h⟩) (iblk m c 2 ⟨p, h⟩)) (iblk m c 0 ⟨p, h⟩) acc r mc).trans ?_
  refine congrArg (acc (ix2 r mc) + ·) ?_
  exact group_sum (iblk m c 0 ⟨p, h⟩) (Pieces.wslab (grid0.coords ⟨p, h⟩) (iblk m c 2 ⟨p, h⟩))
    (m ((c.tc : Thread nD τ).loc main_arg0)) (m ((c.tc : Thread nD τ).loc main_arg2))
    ⟨p / 16 % 16, Nat.mod_lt _ (by decide)⟩ ⟨p % 16, Nat.mod_lt _ (by decide)⟩ r mc
    (fun cc v => x_read m c ⟨p, h⟩ _ _ hn hq r cc v) (fun cc v => w_read m c ⟨p, h⟩ _ hq mc cc v)

/-- A batch's first point leaves the seeds' share plus its group's share. -/
theorem resetVal_apply (c : Dev nD) (p : Nat) (h : p < cfg0.N) (n : Fin 16) (hn : n.val = p / 16) (y : S256x192.Idx) :
    resetVal m c p h y = seedAt m c n y + shareAt m c p y := by
  obtain ⟨r, mc, rfl⟩ : ∃ (r : Fin 256) (mc : Fin 192), y = ix2 r mc := ⟨y 0, y 1, eq_ix2 y⟩
  show stepVal m c p h (k0_pay1 (F := Ideal) (iblk m c 1 ⟨p, h⟩) (iblk m c 3 ⟨p, h⟩)) (ix2 r mc) = _
  rw [stepVal_apply]
  exact congrArg (· + shareAt m c p (ix2 r mc)) (seed_value m c ⟨p, h⟩ n hn r mc)

/-- THE ACCUMULATOR after point `t` of batch `n`: the seeds' share plus the shares of the groups `0 … t % 16`. -/
theorem acc_after (c : Dev nD) (t : Nat) (ht : t < cfg0.N) (n : Fin 16) (hn : n.val = t / 16) (y : S256x192.Idx) :
    (outsAt0 m c t ht).2 y = seedAt m c n y + ∑ s ∈ Finset.range (t % 16 + 1), shareAt m c (16 * (t / 16) + s) y := by
  have h' : 16 * (t / 16) + t % 16 < cfg0.N := by rw [Nat.div_add_mod]; exact ht
  have e := Pipeline.eq_accAt_of_mod (fun n h => (outsAt0 m c n h).2) 16 (resetVal m c) (stepVal m c)
    (fun n h h0 => acc_reset m c n h h0) (fun n h h0 => acc_step m c n h h0) (by decide) t ht h'
  rw [show (outsAt0 m c t ht).2 = _ from e]
  refine Pipeline.accAt_add_apply (resetVal m c) (stepVal m c) (seedAt m c n) (shareAt m c) (16 * (t / 16)) 15
    (fun h i => resetVal_apply m c _ h n (by rw [hn]; omega) i)
    (fun p h acc i _ _ => stepVal_apply m c p h acc i) (t % 16) (by omega) h' y

end Cert.KernelIdeal.Acc
end
-- ==== Proof.KFinal.lean ====
import proofs.«148720_j54494545051886_2_alg».proof.Proof.KAcc
import Idealize.ShloMosaic.Lib.Pipeline.Value
import Idealize.ShloMosaic.Lib.ValueIdx
import Idealize.ShloMosaic.Lib.StableHlo.Run

set_option maxRecDepth 16384

/-
  From the accumulator to the program's result.

  The last point of batch n (t = 16 n + 15) stores accumulator + bias row into the output block, and only these points
  write their block back; block n of the [16, 256, 192] output array is rows (n, ·, ·). After the 16 groups the
  accumulator at (r, m), m = 64 c + j, is the seeds' share plus all 16 groups' shares of (n, r, c, j), so the block
  written back holds the specification's entry (n, r, m / 64, m % 64) at (0, r, m). The 16 blocks tile the array, so the
  array ends holding that function everywhere. The host then views [16, 256, 192] as [16, 256, 3, 64], row-major: the
  entry (n, t, c, j) of the result is the array's entry (n, t, 64 c + j), which is the specification's entry (n, t, c, j).
-/
noncomputable section

open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen Cert.Spec

variable (m : (ℓ : Loc nD τ sig) → Buf (Elt Ideal) ℓ) (ρ : Dev nD → PrngReg)

/-- What the pipeline's output array ends holding: at (n, r, m) the specification's entry (n, r, m / 64, m % 64). -/
def outArray (c : Dev nD) : Buf (Elt Ideal) ((c.tc : Thread nD τ).loc main_v9) := fun (i : S16x256x192.Idx) =>
  entry (m ((c.tc : Thread nD τ).loc main_arg0)) (m ((c.tc : Thread nD τ).loc main_arg1)) (m ((c.tc : Thread nD τ).loc main_arg2)) (m ((c.tc : Thread nD τ).loc main_arg3)) (i 0) (i 1) (seedCh (i 2)) (seedIx (i 2))

/-- The program's result: the specification's result of the four arguments. -/
def outResult (c : Dev nD) : Buf (Elt Ideal) ((c.tc : Thread nD τ).loc main_v10) :=
  result (m ((c.tc : Thread nD τ).loc main_arg0)) (m ((c.tc : Thread nD τ).loc main_arg1)) (m ((c.tc : Thread nD τ).loc main_arg2)) (m ((c.tc : Thread nD τ).loc main_arg3))

/-! ## What a batch's last point writes back -/

set_option maxHeartbeats 400000 in
/-- At a batch's last point the accumulator is the step of what the point before left, -/
theorem acc_at_last (c : Dev nD) (t : Fin cfg0.N) (h0 : ¬t.val % 16 = 0) (h15 : t.val % 16 = 15) :
    (outsAt0 m c t.val t.isLt).2
      = k0_pay2 (F := Ideal) (Pieces.wslab (grid0.coords t) (iblk m c 2 t)) (iblk m c 0 t) (outsAt0 m c (t.val - 1) (Nat.lt_of_le_of_lt (Nat.sub_le _ _) t.isLt)).2 := by
  have e := outsAt0_C m c t h0 h15
  exact (congrArg Prod.snd e).trans
    (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun hh => h0 ((hcond0_0 t).mp hh)) ((hcond0_1 t).mpr h15) (iblk m c 0 t) (iblk m c 1 t) (iblk m c 2 t) (iblk m c 3 t) (iblk m c 4 t) (outsAt0 m c (t.val - 1) (Nat.lt_of_le_of_lt (Nat.sub_le _ _) t.isLt)).2)

set_option maxHeartbeats 400000 in
/-- and the output block is that step plus the bias row. -/
theorem out_at_last (c : Dev nD) (t : Fin cfg0.N) (h0 : ¬t.val % 16 = 0) (h15 : t.val % 16 = 15) :
    (outsAt0 m c t.val t.isLt).1
      = k0_pay3 (F := Ideal) (k0_pay2 (F := Ideal) (Pieces.wslab (grid0.coords t) (iblk m c 2 t)) (iblk m c 0 t) (outsAt0 m c (t.val - 1) (Nat.lt_of_le_of_lt (Nat.sub_le _ _) t.isLt)).2) (iblk m c 4 t) := by
  have e := outsAt0_C m c t h0 h15
  exact (congrArg Prod.fst e).trans
    (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun hh => h0 ((hcond0_0 t).mp hh)) ((hcond0_1 t).mpr h15) (iblk m c 0 t) (iblk m c 1 t) (iblk m c 2 t) (iblk m c 3 t) (iblk m c 4 t) (outsAt0 m c (t.val - 1) (Nat.lt_of_le_of_lt (Nat.sub_le _ _) t.isLt)).2)

/-- So at a batch's last point the output block is the accumulator the point leaves plus the bias row. -/
theorem out_eq_acc (c : Dev nD) (t : Fin cfg0.N) (h0 : ¬t.val % 16 = 0) (h15 : t.val % 16 = 15) :
    (outsAt0 m c t.val t.isLt).1 = k0_pay3 (F := Ideal) (outsAt0 m c t.val t.isLt).2 (iblk m c 4 t) := by
  rw [out_at_last m c t h0 h15, acc_at_last m c t h0 h15]

/-- A point's share, named by its batch and group. -/
theorem shareAt_eq (c : Dev nD) (p : Nat) (n q : Fin 16) (hn : p / 16 % 16 = n.val) (hq : p % 16 = q.val) (y : S256x192.Idx) :
    Acc.shareAt m c p y
      = groupPart (m ((c.tc : Thread nD τ).loc main_arg0)) (m ((c.tc : Thread nD τ).loc main_arg2)) n (y 0) (seedCh (y 1)) (seedIx (y 1)) q := by
  obtain rfl : (⟨p / 16 % 16, Nat.mod_lt _ (by decide)⟩ : Fin 16) = n := Fin.ext hn
  obtain rfl : (⟨p % 16, Nat.mod_lt _ (by decide)⟩ : Fin 16) = q := Fin.ext hq
  rfl

/-- The block a batch's last point leaves holds the specification's entries of that batch. -/
theorem out_block (c : Dev nD) (t : Fin cfg0.N) (h15 : t.val % 16 = 15) (n : Fin 16) (hn : n.val = t.val / 16)
    (r : Fin 256) (mc : Fin 192) :
    (outsAt0 m c t.val t.isLt).1 (ix3 0 r mc) = outArray m c (ix3 n r mc) := by
  have hN : t.val < 256 := lt_of_lt_of_eq t.isLt (show cfg0.N = 256 from N_0)
  rw [out_eq_acc m c t (by omega) h15]
  refine (Pay.pay3_apply _ _ r mc).trans ?_
  rw [Acc.acc_after m c t.val t.isLt n hn (ix2 r mc), Blocks.bias_block m c t mc, Blocks.bias_apply m c mc, h15,
    Finset.sum_range]
  show (seedPart _ _ n r (seedCh mc) (seedIx mc) + _) + _ = (seedPart _ _ n r (seedCh mc) (seedIx mc) + _) + _
  refine congrArg (· + _) (congrArg (_ + ·) (Finset.sum_congr rfl fun q _ => ?_))
  exact shareAt_eq m c _ n q (by have := q.isLt; rw [hn]; omega) (by have := q.isLt; omega) (ix2 r mc)

/-! ## The output array after the run -/

theorem index_out : ∀ t : Fin cfg0.N, win0_5.index t (0 : Fin 3) = t.val / 16 ∧ win0_5.index t (1 : Fin 3) = 0 ∧ win0_5.index t (2 : Fin 3) = 0 :=
  (by decide +kernel : ∀ t : Fin grid0.N, _)

/-- The block at an index of the array whose batch is the point's and whose other coordinates are the block's. -/
theorem flushed_at (c : Dev nD) (t : Fin cfg0.N) (h15 : t.val % 16 = 15) (y : S1x256x192.Idx) (i : S16x256x192.Idx)
    (e0 : (i 0).val = t.val / 16) (e1 : (i 1).val = (y 1).val) (e2 : (i 2).val = (y 2).val) :
    (outsAt0 m c t.val t.isLt).1 y = outArray m c i := by
  obtain ⟨z, r, mc, rfl⟩ : ∃ (z : Fin 1) (r : Fin 256) (mc : Fin 192), y = ix3 z r mc := ⟨y 0, y 1, y 2, eq_ix3 y⟩
  obtain rfl : z = 0 := Subsingleton.elim _ _
  obtain ⟨n, r', mc', rfl⟩ : ∃ (n : Fin 16) (r' : Fin 256) (mc' : Fin 192), i = ix3 n r' mc' := ⟨i 0, i 1, i 2, eq_ix3 i⟩
  obtain rfl : r' = r := Fin.ext e1
  obtain rfl : mc' = mc := Fin.ext e2
  exact out_block m c t h15 n e0 r' mc'

/-- WHAT A FLUSHING POINT WRITES BACK is its block of `outArray`. -/
theorem flushed_eq (c : Dev nD) (t : Fin cfg0.N) (hf : (cfg0.win 5).flush t = true) :
    (dats m 0 c).flushed 5 t = ((cfg0.win 5).blk t).view.read (Elt Ideal) (outArray m c) := by
  have h15 : t.val % 16 = 15 := (flush0_5 t).mp hf
  obtain ⟨i0, i1, i2⟩ := index_out t
  show (cfg0.win 5).cut (grid0.coords t) ((dats m 0 c).after 5 t) = _
  rw [after0_5]
  funext y
  show (outsAt0 m c t.val t.isLt).1 y = outArray m c (((cfg0.win 5).blk t).view.emb y)
  refine flushed_at m c t h15 y _ ?_ ?_ ?_
  · show win0_5.index t (0 : Fin 3) * 1 + 1 * (y 0).val = t.val / 16
    have hy : (y 0).val < 1 := (y 0).isLt
    rw [i0]; omega
  · show win0_5.index t (1 : Fin 3) * 256 + 1 * (y 1).val = (y 1).val
    rw [i1]; omega
  · show win0_5.index t (2 : Fin 3) * 192 + 1 * (y 2).val = (y 2).val
    rw [i2]; omega

/-- An index of the array is in point `t`'s block iff each coordinate is in the block's range on its axis. -/
theorem mem_blk (t : Fin cfg0.N) (i : S16x256x192.Idx) :
    i ∈ ((cfg0.win 5).blk t).view.set ↔ ∀ a : Fin 3, win0_5.index t a * S1x256x192.size a ≤ (i a).val ∧ (i a).val < win0_5.index t a * S1x256x192.size a + S1x256x192.size a := by
  show i ∈ ((View.whole main_v9).slice (win0_5.rect t)).set ↔ _
  rw [View.set_slice_whole, Rect.mem_set_unit]
  exact Iff.rfl

/-- Every index (n, r, m) of the array is in the block of batch n's last point. -/
theorem covered (i : S16x256x192.Idx) :
    ∃ t : Fin cfg0.N, (cfg0.win 5).flush t = true ∧ i ∈ ((cfg0.win 5).blk t).view.set := by
  have h0 : (i 0).val < 16 := (i 0).isLt
  have h1 : (i 1).val < 256 := (i 1).isLt
  have h2 : (i 2).val < 192 := (i 2).isLt
  have hN : cfg0.N = 256 := N_0
  refine ⟨⟨16 * (i 0).val + 15, by rw [hN]; omega⟩, (flush0_5 _).mpr (by show (16 * (i 0).val + 15) % 16 = 15; omega), ?_⟩
  obtain ⟨i0, i1, i2⟩ := index_out ⟨16 * (i 0).val + 15, by rw [hN]; omega⟩
  rw [mem_blk]
  intro a
  match a with
  | ⟨0, _⟩ =>
    show win0_5.index _ (0 : Fin 3) * 1 ≤ (i 0).val ∧ (i 0).val < win0_5.index _ (0 : Fin 3) * 1 + 1
    rw [i0]; show (16 * (i 0).val + 15) / 16 * 1 ≤ (i 0).val ∧ (i 0).val < (16 * (i 0).val + 15) / 16 * 1 + 1; omega
  | ⟨1, _⟩ =>
    show win0_5.index _ (1 : Fin 3) * 256 ≤ (i 1).val ∧ (i 1).val < win0_5.index _ (1 : Fin 3) * 256 + 256
    rw [i1]; omega
  | ⟨2, _⟩ =>
    show win0_5.index _ (2 : Fin 3) * 192 ≤ (i 2).val ∧ (i 2).val < win0_5.index _ (2 : Fin 3) * 192 + 192
    rw [i2]; omega

/-- THE OUTPUT ARRAY after the run. -/
theorem final_out (c : Dev nD) : (dats m 0 c).arrAt 5 cfg0.N = outArray m c :=
  (dats m 0 c).arrAt_eq_of_cover 5 (outArray m c) (flushed_eq m c) (fun i => covered i)

/-! ## The host's view of it as [16, 256, 3, 64] -/

/-- The host's view of the output array is the reshape of `outArray`. -/
theorem tail_eq (c : Dev nD) : Pipeline.afterTail₀ cfgs (dats m) 0 (V0 m) [hostOps1] c main_v10
    = shapeCast S16x256x3x64 (outArray m c) shapeCasts_S16x256x192_S16x256x3x64 := by
  have e : Pipeline.withArrays (cfgs 0).spec c (V0 m c) (fun w => (dats m 0 c).arrAt w (cfgs 0).N) (Proc.devRef .tc main_v9)
      = outArray m c :=
    (Pipeline.withArrays_arr spec0 launch0.win.arr_inj c (V0 m c) (fun w => (dats m 0 c).arrAt w (cfgs 0).N) 5).trans (final_out m c)
  unfold Pipeline.afterTail₀
  show StableHlo.after hostOps1 _ (Proc.devRef .tc main_v10) = _
  after_results
  rw [e]
  rfl

/-- Viewed [16, 256, 3, 64], the output array is the specification's result: (n, t, c, j) reads (n, t, 64 c + j). -/
theorem reshape_out (c : Dev nD) :
    shapeCast S16x256x3x64 (outArray m c) shapeCasts_S16x256x192_S16x256x3x64 = outResult m c := by
  funext i
  obtain ⟨n, t, cc, j, rfl⟩ : ∃ (n : Fin 16) (t : Fin 256) (cc : Fin 3) (j : Fin 64), i = ix4 n t cc j :=
    ⟨i 0, i 1, i 2, i 3, eq_ix4 i⟩
  have hcc := cc.isLt
  have hj := j.isLt
  have hm : cc.val * 64 + j.val < 192 := by omega
  refine (shapeCast_apply (outArray m c) shapeCasts_S16x256x192_S16x256x3x64 (ix4 n t cc j) (ix3 n t (⟨cc.val * 64 + j.val, hm⟩ : Fin 192)) ?_).trans ?_
  · show (S16x256x192.rowMajor (ix3 n t (⟨cc.val * 64 + j.val, hm⟩ : Fin 192))).val = (S16x256x3x64.rowMajor (ix4 n t cc j)).val
    rw [Shape.rowMajor_val_three, Shape.rowMajor_val_four]
    show (n.val * 256 + t.val) * 192 + (cc.val * 64 + j.val) = ((n.val * 256 + t.val) * 3 + cc.val) * 64 + j.val
    omega
  · have e1 : seedCh (⟨cc.val * 64 + j.val, hm⟩ : Fin 192) = cc := Fin.ext (by show (cc.val * 64 + j.val) / 64 = cc.val; omega)
    have e2 : seedIx (⟨cc.val * 64 + j.val, hm⟩ : Fin 192) = j := Fin.ext (by show (cc.val * 64 + j.val) % 64 = j.val; omega)
    show entry _ _ _ _ n t (seedCh (⟨cc.val * 64 + j.val, hm⟩ : Fin 192)) (seedIx (⟨cc.val * 64 + j.val, hm⟩ : Fin 192)) = entry _ _ _ _ n t cc j
    rw [e1, e2]

/-! ## The run, read -/

/-- Every weakly fair execution of the idealized kernel terminates with its result at the specification's result of the
    arguments, and the arguments unchanged. -/
theorem run : θ_run defs (onTc (τ := τ) (main (F := Ideal))) ⟨m, fun _ => 0, ρ⟩ fun r => ∀ c : Dev nD,
      r.2.mem ((c.tc : Thread nD τ).loc main_v10) = outResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans ((tail_eq m c).trans (reshape_out m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final
end
-- ==== Proof.RefValue.lean ====
/-
  The value of the reference program, entry by entry, is the specification's result.

  At the entry (n, t, c, j) the reference adds two terms. The second is b[j, c], reached through a transpose and two
  broadcasts. The first is a contraction over the 16576 mixed features k of W[j, c, k] times the mixed feature vector
  at (n, t, k); that vector is the concatenation of x regrouped as (channel, node) pairs, channel-major (the feature
  ch * 64 + v holds x[n, ch, t, v]) and of the 192 flat seed positions (the feature 16384 + s holds
  seeds[n, t, s / 64, s % 64]). Regrouping the contraction's sum into the seed part and the 16 channel groups
  (the specification's sum_features) and commuting each product gives the specification's entry. Only commutativity
  and associativity of addition and multiplication on the extended reals are used.
-/
import proofs.«148720_j54494545051886_2_alg».proof.Proof.Gen.ReferenceIdeal.Read
import proofs.«148720_j54494545051886_2_alg».proof.Proof.Spec

noncomputable section

namespace Cert.ReferenceIdeal.RefValue

open Cert.ReferenceIdeal Cert.ReferenceIdeal.Read Idealize.ShloMosaic Idealize.ShloMosaic.ValueIdx Cert.Spec

/-- The bias term at (n, t, c, j) is b[j, c]: the two broadcasts drop the batch and time coordinates and the
    transpose exchanges the remaining two. -/
theorem bias_apply (x3 : (⟨S64x3, .f32⟩ : BufTy).Contents (Elt Ideal))
    (n : Fin 16) (t : Fin 256) (c : Fin 3) (j : Fin 64) :
    val_main_v8 (F := Ideal) x3 (ix4 n t c j) = x3 (ix2 j c) := by
  rw [val_main_v8_apply, val_main_v7_apply, val_main_v6_apply]
  exact congrArg x3 (funext fun a => Fin.ext (by match a with | ⟨0, _⟩ => rfl | ⟨1, _⟩ => rfl))

/-- The mixed feature ch * 64 + v of the vector at (n, t) is x[n, ch, t, v]: it lies in the first piece of the
    concatenation, the reshape of the transposed x. -/
theorem mix_featX (x0 : (⟨S16x256x256x64, .f32⟩ : BufTy).Contents (Elt Ideal))
    (x1 : (⟨S16x256x3x64, .f32⟩ : BufTy).Contents (Elt Ideal))
    (n : Fin 16) (t : Fin 256) (ch : Fin 256) (v : Fin 64) :
    val_main_v3 (F := Ideal) x0 x1 (ix3 n t (featX ch v)) = x0 (ix4 n ch t v) := by
  have hn := n.isLt; have ht := t.isLt; have hch := ch.isLt; have hv := v.isLt
  unfold val_main_v3
  refine (concatenate_pair_apply_left (2 : Fin 3) (val_main_v1 (F := Ideal) x0) (val_main_v2 (F := Ideal) x1)
    Facts₀.concatenates_S16x256x16384_S16x256x192_S16x256x16576_d2 (ix3 n t (featX ch v)) rfl
    (ix3 n t (⟨ch.val * 64 + v.val, by omega⟩ : Fin 16384))
    (fun b => by match b with | ⟨0, _⟩ => rfl | ⟨1, _⟩ => rfl | ⟨2, _⟩ => rfl)).trans ?_
  rw [val_main_v1_apply, val_main_v0_apply]
  refine congrArg x0 (funext fun a => Fin.ext ?_)
  match a with
  | ⟨0, _⟩ =>
    show ((n.val * 256 + t.val) * 16384 + (ch.val * 64 + v.val)) / 4194304 = n.val
    omega
  | ⟨1, _⟩ =>
    show ((n.val * 256 + t.val) * 16384 + (ch.val * 64 + v.val)) / 64 % 256 = ch.val
    omega
  | ⟨2, _⟩ =>
    show ((n.val * 256 + t.val) * 16384 + (ch.val * 64 + v.val)) / 16384 % 256 = t.val
    omega
  | ⟨3, _⟩ =>
    show ((n.val * 256 + t.val) * 16384 + (ch.val * 64 + v.val)) % 64 = v.val
    omega

/-- The mixed feature 16384 + s of the vector at (n, t) is seeds[n, t, s / 64, s % 64]: it lies in the second piece
    of the concatenation, the seeds with their last two axes flattened, at position s. -/
theorem mix_featS (x0 : (⟨S16x256x256x64, .f32⟩ : BufTy).Contents (Elt Ideal))
    (x1 : (⟨S16x256x3x64, .f32⟩ : BufTy).Contents (Elt Ideal))
    (n : Fin 16) (t : Fin 256) (s : Fin 192) :
    val_main_v3 (F := Ideal) x0 x1 (ix3 n t (featS s)) = x1 (ix4 n t (seedCh s) (seedIx s)) := by
  have hn := n.isLt; have ht := t.isLt; have hs := s.isLt
  unfold val_main_v3
  refine (concatenate_pair_apply_right (2 : Fin 3) (val_main_v1 (F := Ideal) x0) (val_main_v2 (F := Ideal) x1)
    Facts₀.concatenates_S16x256x16384_S16x256x192_S16x256x16576_d2 (ix3 n t (featS s)) rfl rfl
    (ix3 n t s)
    (fun b hb => by
      match b, hb with
      | ⟨0, _⟩, _ => rfl
      | ⟨1, _⟩, _ => rfl
      | ⟨2, _⟩, hb => exact absurd rfl hb)
    (by show s.val + 16384 = 16384 + s.val; omega)).trans ?_
  rw [val_main_v2_apply]
  refine congrArg x1 (funext fun a => Fin.ext ?_)
  match a with
  | ⟨0, _⟩ =>
    show ((n.val * 256 + t.val) * 192 + s.val) / 49152 = n.val
    omega
  | ⟨1, _⟩ =>
    show ((n.val * 256 + t.val) * 192 + s.val) / 192 % 256 = t.val
    omega
  | ⟨2, _⟩ =>
    show ((n.val * 256 + t.val) * 192 + s.val) / 64 % 3 = s.val / 64
    omega
  | ⟨3, _⟩ =>
    show ((n.val * 256 + t.val) * 192 + s.val) % 64 = s.val % 64
    omega

/-- The contraction term at (n, t, c, j): the sum over the mixed features k of W[j, c, k] times the mixed feature
    vector at (n, t, k). -/
theorem dot_apply (x0 : (⟨S16x256x256x64, .f32⟩ : BufTy).Contents (Elt Ideal))
    (x1 : (⟨S16x256x3x64, .f32⟩ : BufTy).Contents (Elt Ideal))
    (x2 : (⟨S64x3x16576, .f32⟩ : BufTy).Contents (Elt Ideal))
    (n : Fin 16) (t : Fin 256) (c : Fin 3) (j : Fin 64) :
    val_main_v5 (F := Ideal) x0 x1 x2 (ix4 n t c j)
      = ∑ k : Fin 16576, x2 (ix3 j c k) * val_main_v3 (F := Ideal) x0 x1 (ix3 n t k) := by
  rw [val_main_v5_apply, val_main_v4_apply]
  refine Finset.sum_congr rfl fun k _ => ?_
  have el : lidx_main_v4 (idx_main_v5 (ix4 n t c j)) k = ix3 j c k :=
    funext fun a => Fin.ext (by match a with | ⟨0, _⟩ => rfl | ⟨1, _⟩ => rfl | ⟨2, _⟩ => rfl)
  have er : ridx_main_v4 (idx_main_v5 (ix4 n t c j)) k = ix3 n t k :=
    funext fun a => Fin.ext (by match a with | ⟨0, _⟩ => rfl | ⟨1, _⟩ => rfl | ⟨2, _⟩ => rfl)
  rw [el, er]

/-- The reference program's value is the specification's result. -/
theorem reference_eq (x0 : (⟨S16x256x256x64, .f32⟩ : BufTy).Contents (Elt Ideal))
    (x1 : (⟨S16x256x3x64, .f32⟩ : BufTy).Contents (Elt Ideal))
    (x2 : (⟨S64x3x16576, .f32⟩ : BufTy).Contents (Elt Ideal))
    (x3 : (⟨S64x3, .f32⟩ : BufTy).Contents (Elt Ideal)) :
    Cert.ReferenceIdeal.Read.val_main_v9 (F := Ideal) x0 x1 x2 x3 = Cert.Spec.result x0 x1 x2 x3 := by
  funext i
  obtain ⟨n, t, c, j, rfl⟩ : ∃ (n : Fin 16) (t : Fin 256) (c : Fin 3) (j : Fin 64), i = ix4 n t c j :=
    ⟨i 0, i 1, i 2, i 3, eq_ix4 i⟩
  show val_main_v5 (F := Ideal) x0 x1 x2 (ix4 n t c j) + val_main_v8 (F := Ideal) x3 (ix4 n t c j)
    = (seedPart x1 x2 n t c j + ∑ q : Fin 16, groupPart x0 x2 n t c j q) + x3 (ix2 j c)
  rw [bias_apply, dot_apply, sum_features]
  refine congrArg (· + x3 (ix2 j c)) ?_
  refine congrArg₂ (· + ·) ?_ ?_
  · unfold seedPart
    refine Finset.sum_congr rfl fun s _ => ?_
    rw [mix_featS, mul_comm]
  · refine Finset.sum_congr rfl fun q _ => ?_
    unfold groupPart
    refine Finset.sum_congr rfl fun cc _ => Finset.sum_congr rfl fun v _ => ?_
    rw [mix_featX, mul_comm]

end Cert.ReferenceIdeal.RefValue

end
-- ==== Proof.lean ====
/-
  The kernel and its reference compute the same [16, 256, 3, 64] array over the extended reals.

  With x : [16, 256, 256, 64] (batch, channel, time, node), seeds : [16, 256, 3, 64], W : [64, 3, 16576] and b : [64, 3],
  both programs end with, at (n, t, c, j),

      sum over the 16576 mixed features k of mix[n, t, k] * W[j, c, k]  +  b[j, c],

  where the mixed features are the 256 * 64 (channel, node) pairs of x[n, ·, t, ·], channel-major, followed by the 192
  flat (seed channel, seed) positions of seeds[n, t, ·, ·].

  * The reference forms mix by a transpose, two reshapes and a concatenation, contracts it with W in one product, and
    adds b broadcast over (n, t).
  * The kernel never forms mix. The host re-lays W as [16576, 192] (column 64 c + j), cuts it into the x part viewed
    [256, 64, 192] and the seed part [192, 192], and re-lays b as a [1, 192] row. Over a grid of 16 batches by 16 channel
    groups the body keeps a [256, 192] accumulator: at a batch's first point it is set to the seeds' product, at every
    point the product of the point's 16 channels of x with their weights, summed over the channels, is added, and at the
    batch's last point accumulator + bias row is written to the batch's block of a [16, 256, 192] array, which the host
    then views as [16, 256, 3, 64].
  The two agree because a finite sum may be regrouped — the seed features apart, the channels in 16 groups of 16 — and
  each product commuted: only commutativity and associativity of + and * on the extended reals, so the precondition
  (finite inputs) is not used. A change of float format is the identity on the extended reals, and the ideal pass
  rewrote nothing, so the idealized kernel is the kernel's own text.
-/
import proofs.«148720_j54494545051886_2_alg».proof.Defs
import proofs.«148720_j54494545051886_2_alg».proof.Proof.Gen.Kernel
import proofs.«148720_j54494545051886_2_alg».proof.Proof.Gen.Kernel.Skeleton
import proofs.«148720_j54494545051886_2_alg».proof.Proof.Gen.Kernel.Launch
import proofs.«148720_j54494545051886_2_alg».proof.Proof.Gen.Kernel.Points
import proofs.«148720_j54494545051886_2_alg».proof.Proof.Gen.Kernel.Frame
import proofs.«148720_j54494545051886_2_alg».proof.Proof.Gen.KernelIdeal
import proofs.«148720_j54494545051886_2_alg».proof.Proof.Gen.KernelIdeal.Skeleton
import proofs.«148720_j54494545051886_2_alg».proof.Proof.Gen.KernelIdeal.Launch
import proofs.«148720_j54494545051886_2_alg».proof.Proof.Gen.KernelIdeal.Points
import proofs.«148720_j54494545051886_2_alg».proof.Proof.Gen.KernelIdeal.Frame
import proofs.«148720_j54494545051886_2_alg».proof.Proof.Gen.ReferenceIdeal
import proofs.«148720_j54494545051886_2_alg».proof.Proof.Gen.ReferenceIdeal.Run
import proofs.«148720_j54494545051886_2_alg».proof.Proof.Gen.ReferenceIdeal.Read
import proofs.«148720_j54494545051886_2_alg».proof.Proof.Gen.Pre_finite_inputs
import proofs.«148720_j54494545051886_2_alg».proof.Proof.KFinal
import proofs.«148720_j54494545051886_2_alg».proof.Proof.RefValue
import Idealize.ShloMosaic.Adequacy
import Idealize.ShloMosaic.Init

noncomputable section

namespace Cert.Proof

open Idealize.ShloMosaic Idealize.SL.Sem

/-- The three programs run, fault nowhere, and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel's result array and the reference's, from arguments that agree, are the
    specification's result of those arguments. -/
theorem algebraic : Cert.algebraic_KernelIdeal_ReferenceIdeal := by
  intro m ρ m' ρ' _ hagree
  refine ⟨fun c => Cert.KernelIdeal.Final.outResult m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.reference_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
